-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S1x40 : Shape := ⟨2, ![1, 40]⟩
abbrev S2000x128 : Shape := ⟨2, ![2000, 128]⟩
abbrev S2000x1 : Shape := ⟨2, ![2000, 1]⟩
abbrev S800000x128 : Shape := ⟨2, ![800000, 128]⟩
abbrev S50000x40 : Shape := ⟨2, ![50000, 40]⟩
abbrev S2000x40 : Shape := ⟨2, ![2000, 40]⟩
abbrev S800000x40 : Shape := ⟨2, ![800000, 40]⟩

abbrev nBuf : Space → Nat
  | .hbm => 93
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S_, .f32⟩
  | .hbm, ⟨32, _⟩ => ⟨S50000, .f32⟩
  | .hbm, ⟨33, _⟩ => ⟨S50000, .i1⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S1x128, .f32⟩
  | .hbm, ⟨44, _⟩ => ⟨S1x128, .f32⟩
  | .hbm, ⟨45, _⟩ => ⟨S1x40, .f32⟩
  | .hbm, ⟨46, _⟩ => ⟨S50000x128, .bf16⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .bf16⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x128, .bf16⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .bf16⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S50000x128, .bf16⟩
  | .hbm, ⟨77, _⟩ => ⟨S50000x40, .bf16⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x40, .bf16⟩
  | .hbm, ⟨87, _⟩ => ⟨S800000x40, .f32⟩
  | .hbm, ⟨88, _⟩ => ⟨S_, .f32⟩
  | .hbm, ⟨89, _⟩ => ⟨S50000x40, .f32⟩
  | .hbm, ⟨90, _⟩ => ⟨S800000x1, .i32⟩
  | .hbm, ⟨91, _⟩ => ⟨S50000x40, .f32⟩
  | .hbm, ⟨92, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .bf16⟩
  | .local _ .vmem, ⟨5, _⟩ => ⟨S2000x128, .bf16⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S128x128, .f32⟩
  | .local _ .vmem, ⟨11, _⟩ => ⟨S1x128, .f32⟩
  | .local _ .vmem, ⟨12, _⟩ => ⟨S2000x1, .f32⟩
  | .local _ .vmem, ⟨13, _⟩ => ⟨S2000x1, .f32⟩
  | .local _ .vmem, ⟨14, _⟩ => ⟨S2000x128, .bf16⟩
  | .local _ .vmem, ⟨15, _⟩ => ⟨S2000x128, .bf16⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S128x128, .f32⟩
  | .local _ .vmem, ⟨21, _⟩ => ⟨S1x128, .f32⟩
  | .local _ .vmem, ⟨22, _⟩ => ⟨S2000x128, .bf16⟩
  | .local _ .vmem, ⟨23, _⟩ => ⟨S2000x128, .bf16⟩
  | .local _ .vmem, ⟨24, _⟩ => ⟨S2000x128, .bf16⟩
  | .local _ .vmem, ⟨25, _⟩ => ⟨S2000x128, .bf16⟩
  | .local _ .vmem, ⟨26, _⟩ => ⟨S128x40, .f32⟩
  | .local _ .vmem, ⟨27, _⟩ => ⟨S2000x1, .f32⟩
  | .local _ .vmem, ⟨28, _⟩ => ⟨S2000x1, .f32⟩
  | .local _ .vmem, ⟨29, _⟩ => ⟨S2000x40, .bf16⟩
  | .local _ .vmem, ⟨30, _⟩ => ⟨S2000x40, .bf16⟩
  | .local _ .vmem, ⟨31, _⟩ => ⟨S2000x40, .f32⟩
  | .local _ .vmem, ⟨32, _⟩ => ⟨S2000x40, .f32⟩
  | .local _ .vmem, ⟨33, _⟩ => ⟨S2000x1, .f32⟩
  | .local _ .vmem, ⟨34, _⟩ => ⟨S2000x1, .f32⟩
  | .local _ .vmem, ⟨35, _⟩ => ⟨S1x40, .f32⟩
  | .local _ .vmem, ⟨36, _⟩ => ⟨S2000x40, .f32⟩
  | .local _ .vmem, ⟨37, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_v13 : Ref sig .tc := ⟨.hbm, 30, rfl⟩
abbrev main_cst_5 : Ref sig .tc := ⟨.hbm, 31, rfl⟩
abbrev main_v14 : Ref sig .tc := ⟨.hbm, 32, rfl⟩
abbrev main_v15 : Ref sig .tc := ⟨.hbm, 33, rfl⟩
abbrev main_cst_6 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c : Ref sig .tc := ⟨.hbm, 47, rfl⟩
abbrev main_v25 : Ref sig .tc := ⟨.hbm, 48, rfl⟩
abbrev main_v26 : Ref sig .tc := ⟨.hbm, 49, rfl⟩
abbrev main_c_8 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_9 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_v37 : Ref sig .tc := ⟨.hbm, 63, rfl⟩
abbrev main_v38 : Ref sig .tc := ⟨.hbm, 64, rfl⟩
abbrev main_c_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_13 : Ref sig .tc := ⟨.hbm, 78, rfl⟩
abbrev main_v50 : Ref sig .tc := ⟨.hbm, 79, rfl⟩
abbrev main_v51 : Ref sig .tc := ⟨.hbm, 80, rfl⟩
abbrev main_c_14 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_15 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem3_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x40 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S128_S1x128 : S128.ShapeCasts S1x128
  shapeCasts_S40_S1x40 : S40.ShapeCasts S1x40
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  packedbf16_S2000x40_S2000x40_0_0 : (Rect.unit (s := S2000x40) ![0, 0] S2000x40.size inb_S2000x40_S2000x40_0_0).PackedRows (EltTy.packing .bf16)
  bcast_S_S50000x40 : S_.BroadcastsInDim S50000x40 (![] : Fin 0 → Fin S50000x40.rank)
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .bf16 = 32 ∨ (Rect.block (s := S50000x128) S2000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .bf16 = 32 ∨ (Rect.block (s := S50000x128) S2000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .bf16 = 32 ∨ (Rect.block (s := S50000x128) S2000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x40.size a ≤ S50000x40.size a
  hwx3_3 : ∀ i : grid3.Coords, EltTy.bits .bf16 = 32 ∨ (Rect.block (s := S50000x40) S2000x40.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x40.size a ≤ S50000x40.size a
  hwx4_0 : ∀ i : grid4.Coords, EltTy.bits .f32 = 32 ∨ (Rect.block (s := S50000x40) S2000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x40.size a ≤ S50000x40.size a
  hwx4_3 : ∀ i : grid4.Coords, EltTy.bits .f32 = 32 ∨ (Rect.block (s := S50000x40) S2000x40.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v48) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v13) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v49) S2000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v60) S2000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v23) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S2000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S50000x1, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S50000x40, .f32⟩
  | .hbm, ⟨94, _⟩ => ⟨S50000x1, .f32⟩
  | .hbm, ⟨95, _⟩ => ⟨S50000x40, .f32⟩
  | .hbm, ⟨96, _⟩ => ⟨S50000x40, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x40, .f32⟩
  | .hbm, ⟨106, _⟩ => ⟨S_, .f32⟩
  | .hbm, ⟨107, _⟩ => ⟨S50000x40, .f32⟩
  | .hbm, ⟨108, _⟩ => ⟨S800000x1, .i32⟩
  | .hbm, ⟨109, _⟩ => ⟨S50000x40, .f32⟩
  | .hbm, ⟨110, _⟩ => ⟨S50000x1, .f32⟩
  | .hbm, ⟨111, _⟩ => ⟨S50000x40, .f32⟩
  | .hbm, ⟨112, _⟩ => ⟨S50000x40, .f32⟩
  | .hbm, ⟨113, _⟩ => ⟨S1x40, .f32⟩
  | .hbm, ⟨114, _⟩ => ⟨S50000x40, .f32⟩
  | .hbm, ⟨115, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_8 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call2_cst : Ref sig .tc := ⟨.hbm, 64, rfl⟩
abbrev main_call2_v0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_c_11 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_12 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call3_cst : Ref sig .tc := ⟨.hbm, 90, rfl⟩
abbrev main_call3_v0 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_13 : Ref sig .tc := ⟨.hbm, 97, rfl⟩
abbrev main_v65 : Ref sig .tc := ⟨.hbm, 98, rfl⟩
abbrev main_v66 : Ref sig .tc := ⟨.hbm, 99, rfl⟩
abbrev main_c_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x40_0_1 : S50000x1.BroadcastsInDim S50000x40 (![0, 1] : Fin 2 → Fin S50000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.KernelRun.lean ====
/-
  The idealized kernel's run, with every buffer named at its end.

  @main is thirteen segments: stretches of host operations and five regions, each entered from the contents the
  segment before it left.  The run below is the same composition of segments that shows the argument arrays end
  unchanged, but its conclusion keeps everything the composition gives: at the end every unscoped buffer of the
  TensorCore holds the last boundary's contents (`Gen.W13`), the result array among them.  Reading the result's
  value is then a matter of the buffer contents alone, boundary by boundary.
-/
import proofs.«112558_j2800318677548_2_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from `m` terminates, nothing faulting, and in the final state every unscoped
    buffer of every core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

end Cert.KernelIdeal.RunAll

end
-- ==== Proof.Spec.lean ====
/-
  The dense stages of a three-layer graph convolution, entry by entry, over the extended reals.

  A node-indexed array has one row per node.  Every stage below computes row r of its result from row r of its
  node-indexed operands alone (and from whole small operands: a weight matrix, a bias row):
    • `scaled`: a row times the node's scale, X[r, q] · s[r];
    • `conv`: the rectified affine image of the scaled row, max(Σₖ (A[r, k] · sᵢ[r]) · W[k, q] + b[q], 0);
    • `convScaled`: the same, times the node's second scale;
    • `projectScaled`: the row's image under a weight matrix, times the node's scale, (Σₖ H[r, k] · W[k, q]) · s[r];
    • `scaledBias`: the scaled row plus the bias, A[r, q] · sᵢ[r] + b[q].
  A scale is kept as a one-column array and a bias as a one-row array, which is how both programs hold them.
  The number of rows is a parameter: a block of consecutive rows of the operands gives the same rows of the result.
-/
import Idealize.ShloMosaic.PureOps.Ideal
import Idealize.ShloMosaic.Lib.ValueIdx

noncomputable section

namespace Cert.Layers

open Idealize.ShloMosaic Idealize.ShloMosaic.ValueIdx

/-- An array of extended reals with `a` rows and `b` columns. -/
abbrev Mat (a b : Nat) : Type := (⟨2, ![a, b]⟩ : Shape).Idx → EReal

/-- The extended real the all-zero f32 word denotes (both programs compare against this same word, so it is never
    evaluated). -/
abbrev zero : EReal := Ideal.ofBits .f32 0x00000000#32

variable {N K D : Nat}

/-- Row r scaled by the node's scale: X[r, q] · s[r]. -/
def scaled (X : Mat N D) (s : Mat N 1) (r : Fin N) (q : Fin D) : EReal :=
  X (ix2 r q) * s (ix2 r 0)

/-- The rectified affine image of the scaled row: max(Σₖ (A[r, k] · sᵢ[r]) · W[k, q] + b[q], 0). -/
def conv (A : Mat N K) (si : Mat N 1) (W : Mat K D) (b : Mat 1 D) (r : Fin N) (q : Fin D) : EReal :=
  max ((∑ k : Fin K, (A (ix2 r k) * si (ix2 r 0)) * W (ix2 k q)) + b (ix2 0 q)) zero

/-- `conv` times the node's second scale. -/
def convScaled (A : Mat N K) (si : Mat N 1) (W : Mat K D) (b : Mat 1 D) (so : Mat N 1) (r : Fin N) (q : Fin D) : EReal :=
  conv A si W b r q * so (ix2 r 0)

/-- The row's image under a weight matrix, times the node's scale: (Σₖ H[r, k] · W[k, q]) · s[r]. -/
def projectScaled (H : Mat N K) (W : Mat K D) (so : Mat N 1) (r : Fin N) (q : Fin D) : EReal :=
  (∑ k : Fin K, H (ix2 r k) * W (ix2 k q)) * so (ix2 r 0)

/-- The scaled row plus the bias: A[r, q] · sᵢ[r] + b[q]. -/
def scaledBias (A : Mat N D) (si : Mat N 1) (b : Mat 1 D) (r : Fin N) (q : Fin D) : EReal :=
  A (ix2 r q) * si (ix2 r 0) + b (ix2 0 q)

end Cert.Layers

end
-- ==== Proof.Kept.lean ====
/-
  What each segment of @main leaves alone.

  @main alternates stretches of host operations with regions.  A stretch of host operations changes only the buffers its
  operations write; a region changes only its output array (its input arrays end as entered, and it touches no other
  buffer).  So a buffer that is neither written by one of the three later stretches nor the output of a region holds,
  at every later boundary, what it held when the first region was entered.
-/
import proofs.«112558_j2800318677548_2_alg».proof.Proof.Gen.KernelIdeal.Frame
import Idealize.ShloMosaic.Lib.StableHlo.Run

set_option maxRecDepth 16384

noncomputable section

namespace Cert.KernelIdeal.Kept

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-! ## The buffers the three later stretches write -/

/-- The buffers the stretch between regions 0 and 1 writes. -/
abbrev written1 : List (Ref sig .tc) :=
  [main_c, main_v25, main_v26, main_c_8, main_v27, main_v28, main_v29, main_v30, main_v31, main_v32, main_cst_9, main_v33, main_v34, main_v35]
/-- The buffers the stretch between regions 1 and 2 writes. -/
abbrev written2 : List (Ref sig .tc) :=
  [main_c_10, main_v37, main_v38, main_c_11, main_v39, main_v40, main_v41, main_v42, main_v43, main_v44, main_cst_12, main_v45, main_v46, main_v47]
/-- The buffers the stretch between regions 3 and 4 writes. -/
abbrev written4 : List (Ref sig .tc) :=
  [main_c_13, main_v50, main_v51, main_c_14, main_v52, main_v53, main_v54, main_v55, main_v56, main_v57, main_cst_15, main_v58, main_v59, main_v60]

theorem writes1 : (hostOps1 : List (HloOp τ sig (Elt F))).Forall fun op => op.writes ⊆ (written1.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map_of_mem (by decide)
theorem writes2 : (hostOps2 : List (HloOp τ sig (Elt F))).Forall fun op => op.writes ⊆ (written2.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map_of_mem (by decide)
theorem writes4 : (hostOps4 : List (HloOp τ sig (Elt F))).Forall fun op => op.writes ⊆ (written4.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map_of_mem (by decide)

/-! ## One segment at a time -/

/-- Region 0 changes only its output array. -/
theorem W6_of (r : Ref sig .tc) (h : r ≠ main_v24) : W6 m ρ c (Proc.devRef .tc r) = W5 m ρ c (Proc.devRef .tc r) := by
  by_cases h0 : r = main_arg0
  · subst h0; exact (W6_arr m ρ c 0).trans (((dat0 (V5 m ρ) c).arrAt_in 0 rfl _).trans (A_eq0 (V5 m ρ) c 0))
  by_cases h1 : r = main_v13
  · subst h1; exact (W6_arr m ρ c 1).trans (((dat0 (V5 m ρ) c).arrAt_in 1 rfl _).trans (A_eq0 (V5 m ρ) c 1))
  exact W6_of_ne m ρ c r fun w => match w with
    | ⟨0, _⟩ => Ne.symm h0
    | ⟨1, _⟩ => Ne.symm h1
    | ⟨2, _⟩ => Ne.symm h

theorem W7_of (r : Ref sig .tc) (h : r ∉ written1) : W7 m ρ c (Proc.devRef .tc r) = W6 m ρ c (Proc.devRef .tc r) :=
  StableHlo.after_of_writes_sub hostOps1 _ writes1 h

/-- Region 1 changes only its output array. -/
theorem W8_of (r : Ref sig .tc) (h : r ≠ main_v36) : W8 m ρ c (Proc.devRef .tc r) = W7 m ρ c (Proc.devRef .tc r) := by
  by_cases h0 : r = main_v35
  · subst h0; exact (W8_arr m ρ c 0).trans (((dat1 (V7 m ρ) c).arrAt_in 0 rfl _).trans (A_eq1 (V7 m ρ) c 0))
  by_cases h1 : r = main_v20
  · subst h1; exact (W8_arr m ρ c 1).trans (((dat1 (V7 m ρ) c).arrAt_in 1 rfl _).trans (A_eq1 (V7 m ρ) c 1))
  by_cases h2 : r = main_arg3
  · subst h2; exact (W8_arr m ρ c 2).trans (((dat1 (V7 m ρ) c).arrAt_in 2 rfl _).trans (A_eq1 (V7 m ρ) c 2))
  by_cases h3 : r = main_v21
  · subst h3; exact (W8_arr m ρ c 3).trans (((dat1 (V7 m ρ) c).arrAt_in 3 rfl _).trans (A_eq1 (V7 m ρ) c 3))
  by_cases h4 : r = main_v13
  · subst h4; exact (W8_arr m ρ c 4).trans (((dat1 (V7 m ρ) c).arrAt_in 4 rfl _).trans (A_eq1 (V7 m ρ) c 4))
  exact W8_of_ne m ρ c r fun w => match w with
    | ⟨0, _⟩ => Ne.symm h0
    | ⟨1, _⟩ => Ne.symm h1
    | ⟨2, _⟩ => Ne.symm h2
    | ⟨3, _⟩ => Ne.symm h3
    | ⟨4, _⟩ => Ne.symm h4
    | ⟨5, _⟩ => Ne.symm h

theorem W9_of (r : Ref sig .tc) (h : r ∉ written2) : W9 m ρ c (Proc.devRef .tc r) = W8 m ρ c (Proc.devRef .tc r) :=
  StableHlo.after_of_writes_sub hostOps2 _ writes2 h

/-- Region 2 changes only its output array. -/
theorem W10_of (r : Ref sig .tc) (h : r ≠ main_v48) : W10 m ρ c (Proc.devRef .tc r) = W9 m ρ c (Proc.devRef .tc r) := by
  by_cases h0 : r = main_v47
  · subst h0; exact (W10_arr m ρ c 0).trans (((dat2 (V9 m ρ) c).arrAt_in 0 rfl _).trans (A_eq2 (V9 m ρ) c 0))
  by_cases h1 : r = main_v20
  · subst h1; exact (W10_arr m ρ c 1).trans (((dat2 (V9 m ρ) c).arrAt_in 1 rfl _).trans (A_eq2 (V9 m ρ) c 1))
  by_cases h2 : r = main_arg5
  · subst h2; exact (W10_arr m ρ c 2).trans (((dat2 (V9 m ρ) c).arrAt_in 2 rfl _).trans (A_eq2 (V9 m ρ) c 2))
  by_cases h3 : r = main_v22
  · subst h3; exact (W10_arr m ρ c 3).trans (((dat2 (V9 m ρ) c).arrAt_in 3 rfl _).trans (A_eq2 (V9 m ρ) c 3))
  exact W10_of_ne m ρ c r fun w => match w with
    | ⟨0, _⟩ => Ne.symm h0
    | ⟨1, _⟩ => Ne.symm h1
    | ⟨2, _⟩ => Ne.symm h2
    | ⟨3, _⟩ => Ne.symm h3
    | ⟨4, _⟩ => Ne.symm h

/-- Region 3 changes only its output array. -/
theorem W11_of (r : Ref sig .tc) (h : r ≠ main_v49) : W11 m ρ c (Proc.devRef .tc r) = W10 m ρ c (Proc.devRef .tc r) := by
  by_cases h0 : r = main_v48
  · subst h0; exact (W11_arr m ρ c 0).trans (((dat3 (V10 m ρ) c).arrAt_in 0 rfl _).trans (A_eq3 (V10 m ρ) c 0))
  by_cases h1 : r = main_arg7
  · subst h1; exact (W11_arr m ρ c 1).trans (((dat3 (V10 m ρ) c).arrAt_in 1 rfl _).trans (A_eq3 (V10 m ρ) c 1))
  by_cases h2 : r = main_v13
  · subst h2; exact (W11_arr m ρ c 2).trans (((dat3 (V10 m ρ) c).arrAt_in 2 rfl _).trans (A_eq3 (V10 m ρ) c 2))
  exact W11_of_ne m ρ c r fun w => match w with
    | ⟨0, _⟩ => Ne.symm h0
    | ⟨1, _⟩ => Ne.symm h1
    | ⟨2, _⟩ => Ne.symm h2
    | ⟨3, _⟩ => Ne.symm h

theorem W12_of (r : Ref sig .tc) (h : r ∉ written4) : W12 m ρ c (Proc.devRef .tc r) = W11 m ρ c (Proc.devRef .tc r) :=
  StableHlo.after_of_writes_sub hostOps4 _ writes4 h

/-! ## From the first region's entry to each later boundary -/

theorem W7_eq5 (r : Ref sig .tc) (h0 : r ≠ main_v24) (h1 : r ∉ written1) :
    W7 m ρ c (Proc.devRef .tc r) = W5 m ρ c (Proc.devRef .tc r) :=
  (W7_of m ρ c r h1).trans (W6_of m ρ c r h0)

theorem W8_eq5 (r : Ref sig .tc) (h0 : r ≠ main_v24) (h1 : r ∉ written1) (h2 : r ≠ main_v36) :
    W8 m ρ c (Proc.devRef .tc r) = W5 m ρ c (Proc.devRef .tc r) :=
  (W8_of m ρ c r h2).trans (W7_eq5 m ρ c r h0 h1)

theorem W9_eq5 (r : Ref sig .tc) (h0 : r ≠ main_v24) (h1 : r ∉ written1) (h2 : r ≠ main_v36) (h3 : r ∉ written2) :
    W9 m ρ c (Proc.devRef .tc r) = W5 m ρ c (Proc.devRef .tc r) :=
  (W9_of m ρ c r h3).trans (W8_eq5 m ρ c r h0 h1 h2)

theorem W10_eq5 (r : Ref sig .tc) (h0 : r ≠ main_v24) (h1 : r ∉ written1) (h2 : r ≠ main_v36) (h3 : r ∉ written2)
    (h4 : r ≠ main_v48) : W10 m ρ c (Proc.devRef .tc r) = W5 m ρ c (Proc.devRef .tc r) :=
  (W10_of m ρ c r h4).trans (W9_eq5 m ρ c r h0 h1 h2 h3)

theorem W11_eq5 (r : Ref sig .tc) (h0 : r ≠ main_v24) (h1 : r ∉ written1) (h2 : r ≠ main_v36) (h3 : r ∉ written2)
    (h4 : r ≠ main_v48) (h5 : r ≠ main_v49) : W11 m ρ c (Proc.devRef .tc r) = W5 m ρ c (Proc.devRef .tc r) :=
  (W11_of m ρ c r h5).trans (W10_eq5 m ρ c r h0 h1 h2 h3 h4)

theorem W12_eq5 (r : Ref sig .tc) (h0 : r ≠ main_v24) (h1 : r ∉ written1) (h2 : r ≠ main_v36) (h3 : r ∉ written2)
    (h4 : r ≠ main_v48) (h5 : r ≠ main_v49) (h6 : r ∉ written4) :
    W12 m ρ c (Proc.devRef .tc r) = W5 m ρ c (Proc.devRef .tc r) :=
  (W12_of m ρ c r h6).trans (W11_eq5 m ρ c r h0 h1 h2 h3 h4 h5)

end Cert.KernelIdeal.Kept

end
-- ==== Proof.LibColumns.lean ====
/-
  One column broadcast over many, and a vector recast as a column.

  Two layout facts read at an index, for any extents: an array of shape [a, 1] (one value per row) broadcast to
  [a, b] reads at (p, c) the value of row p; and a vector of length a recast to shape [a, 1] reads at (p, 0) the
  vector's entry p.
-/
import Idealize.ShloMosaic.Lib.Pipeline.Value
import Idealize.ShloMosaic.Lib.ValueIdx

noncomputable section

namespace Cert.Lib.Columns

open Idealize.ShloMosaic Idealize.ShloMosaic.ValueIdx

variable {α : Type}

/-- An [a, 1] array broadcast to [a, b] reads, at (p, c), the operand's row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a recast to shape [a, 1] reads, at (p, 0), the vector's entry p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  omega

end Cert.Lib.Columns

end
-- ==== Proof.EntryScales.lean ====
/-
  What the first dense stage finds: the two degree scales, as columns.

  Before the first region the program counts every node's out-degree and in-degree (ones scatter-added by source and
  by destination index), and turns each count d into the scale 1/√max(d, 1) where d > 0 and 0 elsewhere.  It does so
  with the very host operations the reference uses, so each scale is the reference's vector — read stretch by stretch:
  a stretch of host operations gives each buffer it writes the operation's value of its operands, and leaves the others.
  The only difference is the last step: the program RECASTS the vector of length 50000 as a [50000, 1] column where the
  reference BROADCASTS it along a new trailing axis; both columns hold the vector's entry r at (r, 0).
-/
import proofs.«112558_j2800318677548_2_alg».proof.Proof.Gen.KernelIdeal.Frame
import proofs.«112558_j2800318677548_2_alg».proof.Proof.RefRead
import proofs.«112558_j2800318677548_2_alg».proof.Proof.Spec
import proofs.«112558_j2800318677548_2_alg».proof.Proof.LibColumns
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.ShloMosaic.ValueIdx Idealize.SL.Sem
open Idealize.ShloMosaic.StableHlo

variable (W : Valuation τ sig (Elt Ideal))

/-! ## The out-degree scale -/

/-- The out-degree of every node: ones scatter-added by source index. -/
abbrev outDeg (x1 : (⟨S800000, .i32⟩ : BufTy).Contents (Elt Ideal)) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 x1)
    (broadcastInDim S800000 ![] bcast_S_S800000 (constant (F := Ideal) S_ .f32 0x3F800000#32))

theorem s0_v8 : StableHlo.after hostOps0 W (Proc.devRef .tc main_v8)
    = cmpf .ogt (outDeg (W (Proc.devRef .tc main_arg1))) (broadcastInDim S50000 ![] bcast_S_S50000 (constant (F := Ideal) S_ .f32 0x00000000#32)) := by
  simp only [hostOps0]
  after_results_simp

theorem s0_v11 : StableHlo.after hostOps0 W (Proc.devRef .tc main_v11)
    = Host.rsqrt (maximumf (outDeg (W (Proc.devRef .tc main_arg1))) (broadcastInDim S50000 ![] bcast_S_S50000 (constant (F := Ideal) S_ .f32 0x3F800000#32))) := by
  simp only [hostOps0]
  after_results_simp

theorem s0_cst4 : StableHlo.after hostOps0 W (Proc.devRef .tc main_cst_4) = constant (F := Ideal) S_ .f32 0x00000000#32 := by
  simp only [hostOps0]
  after_results_simp

theorem s1_v12 : StableHlo.after hostOps0_1 W (Proc.devRef .tc main_v12)
    = select (W (Proc.devRef .tc main_v8)) (W (Proc.devRef .tc main_v11)) (broadcastInDim S50000 ![] bcast_S_S50000 (id (W (Proc.devRef .tc main_cst_4)))) := by
  simp only [hostOps0_1]
  after_results_simp
  rfl

theorem s2_v13 : StableHlo.after hostOps0_2 W (Proc.devRef .tc main_v13)
    = shapeCast S50000x1 (W (Proc.devRef .tc main_v12)) shapeCasts_S50000_S50000x1 := by
  simp only [hostOps0_2]
  after_results_simp
  rfl

theorem s3_v13 : StableHlo.after hostOps0_3 W (Proc.devRef .tc main_v13) = W (Proc.devRef .tc main_v13) := by
  simp only [hostOps0_3]
  after_results_simp

theorem s4_v13 : StableHlo.after hostOps0_4 W (Proc.devRef .tc main_v13) = W (Proc.devRef .tc main_v13) := by
  simp only [hostOps0_4]
  after_results_simp

section
open Cert.ReferenceIdeal.ReadP
variable (x1 : (⟨S800000, .i32⟩ : BufTy).Contents (Elt Ideal))

theorem deg_eq : outDeg x1 = val_main_v3 (F := Ideal) x1 := rfl
theorem e8 : cmpf .ogt (outDeg x1) (broadcastInDim S50000 ![] bcast_S_S50000 (constant (F := Ideal) S_ .f32 0x00000000#32)) = val_main_v8 (F := Ideal) x1 := rfl
theorem e11 : Host.rsqrt (maximumf (outDeg x1) (broadcastInDim S50000 ![] bcast_S_S50000 (constant (F := Ideal) S_ .f32 0x3F800000#32))) = val_main_v11 (F := Ideal) x1 := rfl
theorem ec : broadcastInDim S50000 ![] bcast_S_S50000 (id (constant (F := Ideal) S_ .f32 0x00000000#32)) = val_main_call0_v1 (F := Ideal) := rfl

/-- The out-degree scale as a vector is the reference's. -/
theorem so_eq : select (cmpf .ogt (outDeg x1) (broadcastInDim S50000 ![] bcast_S_S50000 (constant (F := Ideal) S_ .f32 0x00000000#32)))
      (Host.rsqrt (maximumf (outDeg x1) (broadcastInDim S50000 ![] bcast_S_S50000 (constant (F := Ideal) S_ .f32 0x3F800000#32))))
      (broadcastInDim S50000 ![] bcast_S_S50000 (id (constant (F := Ideal) S_ .f32 0x00000000#32)))
    = val_main_v12 (F := Ideal) x1 := by
  rw [e8, e11, ec]
  rfl
end

variable (m : (ℓ : Loc nD τ sig) → Buf (Elt Ideal) ℓ) (ρ : Dev nD → PrngReg) (c : Dev nD)

open Cert.ReferenceIdeal.ReadP in
/-- At the first region's entry the out-degree scale column is the reference's. -/
theorem W5_v13 : W5 m ρ c (Proc.devRef .tc main_v13) = val_main_v19 (F := Ideal) (m ((c.tc : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v13) = _
  rw [s4_v13, s3_v13, s2_v13, s1_v12, s0_v8, s0_v11, s0_cst4]
  have hx : W0 m ρ c (Proc.devRef .tc main_arg1) = m ((c.tc : Thread nD τ).loc main_arg1) := rfl
  rw [hx, so_eq]
  funext i
  obtain ⟨r, z, rfl⟩ : ∃ (r : Fin 50000) (z : Fin 1), i = ix2 r z := ⟨i 0, i 1, eq_ix2 i⟩
  obtain rfl : z = 0 := Subsingleton.elim _ _
  rw [val_main_v19_apply]
  refine (Cert.Lib.Columns.shapeCast_a_a1_apply _ shapeCasts_S50000_S50000x1 r).trans ?_
  exact congrArg _ (funext fun a => Fin.ext (by match a with | ⟨0, _⟩ => rfl))

/-! ## The in-degree scale -/

/-- The in-degree of every node: ones scatter-added by destination index. -/
abbrev inDeg (x2 : (⟨S800000, .i32⟩ : BufTy).Contents (Elt Ideal)) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 x2)
    (broadcastInDim S800000 ![] bcast_S_S800000 (constant (F := Ideal) S_ .f32 0x3F800000#32))

theorem s0_v6 : StableHlo.after hostOps0 W (Proc.devRef .tc main_v6) = inDeg (W (Proc.devRef .tc main_arg2)) := by
  simp only [hostOps0]
  after_results_simp

theorem s1_v6 : StableHlo.after hostOps0_1 W (Proc.devRef .tc main_v6) = W (Proc.devRef .tc main_v6) := by
  simp only [hostOps0_1]
  after_results_simp

theorem s2_v15 : StableHlo.after hostOps0_2 W (Proc.devRef .tc main_v15)
    = cmpf .ogt (W (Proc.devRef .tc main_v6)) (broadcastInDim S50000 ![] bcast_S_S50000 (constant (F := Ideal) S_ .f32 0x00000000#32)) := by
  simp only [hostOps0_2]
  after_results_simp

theorem s2_v18 : StableHlo.after hostOps0_2 W (Proc.devRef .tc main_v18)
    = Host.rsqrt (maximumf (W (Proc.devRef .tc main_v6)) (broadcastInDim S50000 ![] bcast_S_S50000 (constant (F := Ideal) S_ .f32 0x3F800000#32))) := by
  simp only [hostOps0_2]
  after_results_simp

theorem s2_cst7 : StableHlo.after hostOps0_2 W (Proc.devRef .tc main_cst_7) = constant (F := Ideal) S_ .f32 0x00000000#32 := by
  simp only [hostOps0_2]
  after_results_simp

theorem s3_v19 : StableHlo.after hostOps0_3 W (Proc.devRef .tc main_v19)
    = select (W (Proc.devRef .tc main_v15)) (W (Proc.devRef .tc main_v18)) (broadcastInDim S50000 ![] bcast_S_S50000 (id (W (Proc.devRef .tc main_cst_7)))) := by
  simp only [hostOps0_3]
  after_results_simp
  rfl

theorem s4_v20 : StableHlo.after hostOps0_4 W (Proc.devRef .tc main_v20)
    = shapeCast S50000x1 (W (Proc.devRef .tc main_v19)) shapeCasts_S50000_S50000x1 := by
  simp only [hostOps0_4]
  after_results_simp
  rfl

section
open Cert.ReferenceIdeal.ReadP
variable (x2 : (⟨S800000, .i32⟩ : BufTy).Contents (Elt Ideal))

theorem e14 : cmpf .ogt (inDeg x2) (broadcastInDim S50000 ![] bcast_S_S50000 (constant (F := Ideal) S_ .f32 0x00000000#32)) = val_main_v14 (F := Ideal) x2 := rfl
theorem e17 : Host.rsqrt (maximumf (inDeg x2) (broadcastInDim S50000 ![] bcast_S_S50000 (constant (F := Ideal) S_ .f32 0x3F800000#32))) = val_main_v17 (F := Ideal) x2 := rfl
theorem ec1 : broadcastInDim S50000 ![] bcast_S_S50000 (id (constant (F := Ideal) S_ .f32 0x00000000#32)) = val_main_call1_v1 (F := Ideal) := rfl

/-- The in-degree scale as a vector is the reference's. -/
theorem si_eq : select (cmpf .ogt (inDeg x2) (broadcastInDim S50000 ![] bcast_S_S50000 (constant (F := Ideal) S_ .f32 0x00000000#32)))
      (Host.rsqrt (maximumf (inDeg x2) (broadcastInDim S50000 ![] bcast_S_S50000 (constant (F := Ideal) S_ .f32 0x3F800000#32))))
      (broadcastInDim S50000 ![] bcast_S_S50000 (id (constant (F := Ideal) S_ .f32 0x00000000#32)))
    = val_main_v18 (F := Ideal) x2 := by
  rw [e14, e17, ec1]
  rfl
end

open Cert.ReferenceIdeal.ReadP in
/-- At the first region's entry the in-degree scale column is the reference's. -/
theorem W5_v20 : W5 m ρ c (Proc.devRef .tc main_v20) = val_main_v32 (F := Ideal) (m ((c.tc : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_v20) = _
  rw [s4_v20, s3_v19, s2_v15, s2_v18, s2_cst7, s1_v6, s0_v6]
  have hx : W0 m ρ c (Proc.devRef .tc main_arg2) = m ((c.tc : Thread nD τ).loc main_arg2) := rfl
  rw [hx, si_eq]
  funext i
  obtain ⟨r, z, rfl⟩ : ∃ (r : Fin 50000) (z : Fin 1), i = ix2 r z := ⟨i 0, i 1, eq_ix2 i⟩
  obtain rfl : z = 0 := Subsingleton.elim _ _
  rw [val_main_v32_apply]
  refine (Cert.Lib.Columns.shapeCast_a_a1_apply _ shapeCasts_S50000_S50000x1 r).trans ?_
  exact congrArg _ (funext fun a => Fin.ext (by match a with | ⟨0, _⟩ => rfl))

end Cert.KernelIdeal.Entry

end
-- ==== Proof.EntryArgs.lean ====
/-
  What the first dense stage finds: six arguments untouched, and the three bias vectors as rows.

  Before the first dense stage the program runs five stretches of host operations (the node degrees, the two
  degree scales, and the biases recast as rows).  None of them writes an argument array, so the feature matrix, the
  two edge-index arrays and the three weight matrices are, at the first stage's entry, what they were at launch.  Each
  bias vector b of length n is recast to shape [1, n]; the reference instead broadcasts b along a new leading axis
  of extent one.  Both arrays hold b[j] at (0, j), so they are equal.
-/
import proofs.«112558_j2800318677548_2_alg».proof.Proof.Gen.KernelIdeal.Frame
import proofs.«112558_j2800318677548_2_alg».proof.Proof.RefRead
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.EntryArgs

open Cert.KernelIdeal Cert.KernelIdeal.Gen Idealize.ShloMosaic Idealize.ShloMosaic.TcCoe Idealize.ShloMosaic.StableHlo Idealize.SL.Sem
open Cert.ReferenceIdeal.ReadP Idealize.ShloMosaic.ValueIdx

variable (m : (ℓ : Loc nD τ sig) → Buf (Elt Ideal) ℓ) (ρ : Dev nD → PrngReg) (c : Dev nD)

/-! ## The arguments the leading host operations leave alone -/

/-- No leading host operation writes argument 0: the first region finds it as launched. -/
theorem W5_arg0 : W5 m ρ c (Proc.devRef .tc main_arg0) = m ((c.tc : Thread nD τ).loc main_arg0) := by
  show StableHlo.after hostOps0_4 (StableHlo.after hostOps0_3 (StableHlo.after hostOps0_2 (StableHlo.after hostOps0_1 (StableHlo.after hostOps0 (W0 m ρ c))))) (Proc.devRef .tc main_arg0) = _
  simp only [hostOps0_4, hostOps0_3, hostOps0_2, hostOps0_1, hostOps0]
  after_results_simp

/-- No leading host operation writes argument 1: the first region finds it as launched. -/
theorem W5_arg1 : W5 m ρ c (Proc.devRef .tc main_arg1) = m ((c.tc : Thread nD τ).loc main_arg1) := by
  show StableHlo.after hostOps0_4 (StableHlo.after hostOps0_3 (StableHlo.after hostOps0_2 (StableHlo.after hostOps0_1 (StableHlo.after hostOps0 (W0 m ρ c))))) (Proc.devRef .tc main_arg1) = _
  simp only [hostOps0_4, hostOps0_3, hostOps0_2, hostOps0_1, hostOps0]
  after_results_simp

/-- No leading host operation writes argument 2: the first region finds it as launched. -/
theorem W5_arg2 : W5 m ρ c (Proc.devRef .tc main_arg2) = m ((c.tc : Thread nD τ).loc main_arg2) := by
  show StableHlo.after hostOps0_4 (StableHlo.after hostOps0_3 (StableHlo.after hostOps0_2 (StableHlo.after hostOps0_1 (StableHlo.after hostOps0 (W0 m ρ c))))) (Proc.devRef .tc main_arg2) = _
  simp only [hostOps0_4, hostOps0_3, hostOps0_2, hostOps0_1, hostOps0]
  after_results_simp

/-- No leading host operation writes argument 3: the first region finds it as launched. -/
theorem W5_arg3 : W5 m ρ c (Proc.devRef .tc main_arg3) = m ((c.tc : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  simp only [hostOps0_4, hostOps0_3, hostOps0_2, hostOps0_1, hostOps0]
  after_results_simp

/-- No leading host operation writes argument 5: the first region finds it as launched. -/
theorem W5_arg5 : W5 m ρ c (Proc.devRef .tc main_arg5) = m ((c.tc : Thread nD τ).loc main_arg5) := by
  show StableHlo.after hostOps0_4 (StableHlo.after hostOps0_3 (StableHlo.after hostOps0_2 (StableHlo.after hostOps0_1 (StableHlo.after hostOps0 (W0 m ρ c))))) (Proc.devRef .tc main_arg5) = _
  simp only [hostOps0_4, hostOps0_3, hostOps0_2, hostOps0_1, hostOps0]
  after_results_simp

/-- No leading host operation writes argument 7: the first region finds it as launched. -/
theorem W5_arg7 : W5 m ρ c (Proc.devRef .tc main_arg7) = m ((c.tc : Thread nD τ).loc main_arg7) := by
  show StableHlo.after hostOps0_4 (StableHlo.after hostOps0_3 (StableHlo.after hostOps0_2 (StableHlo.after hostOps0_1 (StableHlo.after hostOps0 (W0 m ρ c))))) (Proc.devRef .tc main_arg7) = _
  simp only [hostOps0_4, hostOps0_3, hostOps0_2, hostOps0_1, hostOps0]
  after_results_simp

/-! ## The three bias rows -/

/-- The first layer's bias as a row [1, 128]: the vector recast as a one-row array is the vector broadcast along a new leading axis; both read, at
    (0, j), the vector's entry j. -/
theorem W5_v21 : W5 m ρ c (Proc.devRef .tc main_v21) = val_main_v36 (F := Ideal) (m ((c.tc : Thread nD τ).loc main_arg4)) := by
  show StableHlo.after hostOps0_4 (StableHlo.after hostOps0_3 (StableHlo.after hostOps0_2 (StableHlo.after hostOps0_1 (StableHlo.after hostOps0 (W0 m ρ c))))) (Proc.devRef .tc main_v21) = _
  simp only [hostOps0_4, hostOps0_3, hostOps0_2, hostOps0_1, hostOps0]
  after_results_simp
  funext i
  obtain ⟨u, j, rfl⟩ : ∃ (u : Fin 1) (j : Fin 128), i = ix2 u j := ⟨i 0, i 1, eq_ix2 i⟩
  rw [val_main_v36_apply]
  show shapeCast ⟨2, ![1, 128]⟩ (m ((c.tc : Thread nD τ).loc main_arg4) : (⟨1, ![128]⟩ : Shape).Idx → EReal) shapeCasts_S128_S1x128 (ix2 u j) = _
  rw [shapeCast_a_1a_apply]
  exact congrArg _ (funext fun a => match a with | ⟨0, _⟩ => rfl)

/-- The second layer's bias as a row [1, 128]: the vector recast as a one-row array is the vector broadcast along a new leading axis; both read, at
    (0, j), the vector's entry j. -/
theorem W5_v22 : W5 m ρ c (Proc.devRef .tc main_v22) = val_main_v57 (F := Ideal) (m ((c.tc : Thread nD τ).loc main_arg6)) := by
  show StableHlo.after hostOps0_4 (StableHlo.after hostOps0_3 (StableHlo.after hostOps0_2 (StableHlo.after hostOps0_1 (StableHlo.after hostOps0 (W0 m ρ c))))) (Proc.devRef .tc main_v22) = _
  simp only [hostOps0_4, hostOps0_3, hostOps0_2, hostOps0_1, hostOps0]
  after_results_simp
  funext i
  obtain ⟨u, j, rfl⟩ : ∃ (u : Fin 1) (j : Fin 128), i = ix2 u j := ⟨i 0, i 1, eq_ix2 i⟩
  rw [val_main_v57_apply]
  show shapeCast ⟨2, ![1, 128]⟩ (m ((c.tc : Thread nD τ).loc main_arg6) : (⟨1, ![128]⟩ : Shape).Idx → EReal) shapeCasts_S128_S1x128 (ix2 u j) = _
  rw [shapeCast_a_1a_apply]
  exact congrArg _ (funext fun a => match a with | ⟨0, _⟩ => rfl)

/-- The last layer's bias as a row [1, 40]: the vector recast as a one-row array is the vector broadcast along a new leading axis; both read, at
    (0, j), the vector's entry j. -/
theorem W5_v23 : W5 m ρ c (Proc.devRef .tc main_v23) = val_main_v78 (F := Ideal) (m ((c.tc : Thread nD τ).loc main_arg8)) := by
  show StableHlo.after hostOps0_4 (StableHlo.after hostOps0_3 (StableHlo.after hostOps0_2 (StableHlo.after hostOps0_1 (StableHlo.after hostOps0 (W0 m ρ c))))) (Proc.devRef .tc main_v23) = _
  simp only [hostOps0_4, hostOps0_3, hostOps0_2, hostOps0_1, hostOps0]
  after_results_simp
  funext i
  obtain ⟨u, j, rfl⟩ : ∃ (u : Fin 1) (j : Fin 40), i = ix2 u j := ⟨i 0, i 1, eq_ix2 i⟩
  rw [val_main_v78_apply]
  show shapeCast ⟨2, ![1, 40]⟩ (m ((c.tc : Thread nD τ).loc main_arg8) : (⟨1, ![40]⟩ : Shape).Idx → EReal) shapeCasts_S40_S1x40 (ix2 u j) = _
  rw [shapeCast_a_1a_apply]
  exact congrArg _ (funext fun a => match a with | ⟨0, _⟩ => rfl)

end Cert.KernelIdeal.EntryArgs

end
-- ==== Proof.Stretches.lean ====
/-
  The three aggregations between the dense stages: both programs run the same host operations.

  Between two dense stages the graph convolution aggregates along the edges: with e ranging over the 800000 edges,
  src and dst their two index arrays and X the node-indexed array the previous stage left, the result is
      Y[n, q] = Σ over the edges e with dst[e] = n of X[src'[e], q],      src'[e] = src[e] + 50000 if src[e] < 0, else src[e],
  (for indices inside the array; outside it the gather and the scatter do what their records prescribe, the same on
  both sides), computed as: compare src with 0 (signed), add 50000, select; gather the rows X[src'[e], ·]; widen them to
  the wide float format; scatter-add them by dst into an array of zeros.  The kernel-side program runs exactly
  these operations in this order; the reference, whose arrays are in the wide format throughout, runs the same ones
  without the widening, on the same records (printed once per program, with one body).  At the ideal values the
  widening is the identity, so whatever the buffers hold, if the previous stage's array is the reference's value then
  the aggregated array is the reference's next value: the two sides are one term.  Nothing is evaluated at an index.
-/
import proofs.«112558_j2800318677548_2_alg».proof.Proof.Gen.KernelIdeal.Frame
import proofs.«112558_j2800318677548_2_alg».proof.Proof.RefRead
import Idealize.ShloMosaic.Lib.StableHlo.Run
import Idealize.ShloMosaic.Lib.ValueIdx

set_option maxRecDepth 16384

noncomputable section

namespace Cert.KernelIdeal.Stretches

open Cert.KernelIdeal Cert.KernelIdeal.Gen Idealize.ShloMosaic Idealize.ShloMosaic.TcCoe Idealize.ShloMosaic.StableHlo Idealize.SL.Sem
open Cert.ReferenceIdeal.ReadP

/-! ## The two programs' records -/

/-- The two programs print one gather record (128 columns) under two names. -/
theorem gather128_eq : Cert.KernelIdeal.gather_S50000x128_S800000x1_S800000x128_1_0_n_n_0_1_1128
    = Cert.ReferenceIdeal.gather_S50000x128_S800000x1_S800000x128_1_0_n_n_0_1_1128 := rfl
/-- The two programs print one scatter record (128 columns) under two names. -/
theorem scatter128_eq : Cert.KernelIdeal.scatter_S50000x128_S800000x1_S800000x128_1_0_0_1
    = Cert.ReferenceIdeal.scatter_S50000x128_S800000x1_S800000x128_1_0_0_1 := rfl
/-- The two programs print one gather record (40 columns) under two names. -/
theorem gather40_eq : Cert.KernelIdeal.gather_S50000x40_S800000x1_S800000x40_1_0_n_n_0_1_140
    = Cert.ReferenceIdeal.gather_S50000x40_S800000x1_S800000x40_1_0_n_n_0_1_140 := rfl
/-- The two programs print one scatter record (40 columns) under two names. -/
theorem scatter40_eq : Cert.KernelIdeal.scatter_S50000x40_S800000x1_S800000x40_1_0_0_1
    = Cert.ReferenceIdeal.scatter_S50000x40_S800000x1_S800000x40_1_0_0_1 := rfl

/-! ## The three aggregations -/

/-- The first aggregation: from the scaled input rows, the sum over each node's incoming edges of the source rows. -/
theorem stretch1 (W : Valuation τ sig (Elt Ideal)) (x0 : (⟨S50000x128, .f32⟩ : BufTy).Contents (Elt Ideal))
    (x1 x2 : (⟨S800000, .i32⟩ : BufTy).Contents (Elt Ideal))
    (h : W (Proc.devRef .tc main_v24) = val_main_v21 (F := Ideal) x0 x1)
    (h1 : W (Proc.devRef .tc main_arg1) = x1) (h2 : W (Proc.devRef .tc main_arg2) = x2) :
    StableHlo.after hostOps1 W (Proc.devRef .tc main_v35) = val_main_v31 (F := Ideal) x0 x1 x2 := by
  show StableHlo.after hostOps1 W (Proc.devRef .tc main_v35) = _
  simp only [hostOps1]
  after_results_simp
  rw [h, h1, h2, gather128_eq, scatter128_eq]
  unfold val_main_v31 val_main_v29 val_main_v30 val_main_v28 val_main_v27 val_main_v26 val_main_v25 val_main_v24
    val_main_v23 val_main_v22 val_main_c val_main_c_8 val_main_cst_9
  rfl

/-- The second aggregation: the same sum over incoming edges, of the first layer's scaled rows. -/
theorem stretch2 (W : Valuation τ sig (Elt Ideal)) (x0 : (⟨S50000x128, .f32⟩ : BufTy).Contents (Elt Ideal))
    (x1 x2 : (⟨S800000, .i32⟩ : BufTy).Contents (Elt Ideal))
    (x3 : (⟨S128x128, .f32⟩ : BufTy).Contents (Elt Ideal)) (x4 : (⟨S128, .f32⟩ : BufTy).Contents (Elt Ideal))
    (h : W (Proc.devRef .tc main_v36) = val_main_v42 (F := Ideal) x0 x1 x2 x3 x4)
    (h1 : W (Proc.devRef .tc main_arg1) = x1) (h2 : W (Proc.devRef .tc main_arg2) = x2) :
    StableHlo.after hostOps2 W (Proc.devRef .tc main_v47) = val_main_v52 (F := Ideal) x0 x1 x2 x3 x4 := by
  show StableHlo.after hostOps2 W (Proc.devRef .tc main_v47) = _
  simp only [hostOps2]
  after_results_simp
  rw [h, h1, h2, gather128_eq, scatter128_eq]
  unfold val_main_v52 val_main_v50 val_main_v51 val_main_v49 val_main_v48 val_main_v47 val_main_v46 val_main_v45
    val_main_v44 val_main_v43 val_main_c_10 val_main_c_11 val_main_cst_12
  rfl

/-- The third aggregation: the same sum over incoming edges, of the projected scaled rows (40 columns). -/
theorem stretch4 (W : Valuation τ sig (Elt Ideal)) (x0 : (⟨S50000x128, .f32⟩ : BufTy).Contents (Elt Ideal))
    (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x40, .f32⟩ : BufTy).Contents (Elt Ideal))
    (h : W (Proc.devRef .tc main_v49) = val_main_v64 (F := Ideal) x0 x1 x2 x3 x4 x5 x6 x7)
    (h1 : W (Proc.devRef .tc main_arg1) = x1) (h2 : W (Proc.devRef .tc main_arg2) = x2) :
    StableHlo.after hostOps4 W (Proc.devRef .tc main_v60) = val_main_v74 (F := Ideal) x0 x1 x2 x3 x4 x5 x6 x7 := by
  show StableHlo.after hostOps4 W (Proc.devRef .tc main_v60) = _
  simp only [hostOps4]
  after_results_simp
  rw [h, h1, h2, gather40_eq, scatter40_eq]
  unfold val_main_v74 val_main_v72 val_main_v73 val_main_v71 val_main_v70 val_main_v69 val_main_v68 val_main_v67
    val_main_v66 val_main_v65 val_main_c_13 val_main_c_14 val_main_cst_15
  rfl

end Cert.KernelIdeal.Stretches

end
-- ==== Proof.RefStages.lean ====
/-
  The reference's five dense stages, read at an index.

  Between two gathers and scatters along the graph's edges the reference computes, entry by entry, a function of
  row r of its row-indexed operands and of whole small operands.  Reading each such run of operations at the entry
  (r, q) — a product and a broadcast read their operands at the entry, a one-column broadcast reads the row's one
  value, a one-row broadcast reads the column's one value, a matrix product is the sum over the contracted index,
  and the rectifier's zero is the zero word — gives the stage's closed form:
    • the features times the node's scale;
    • the rectified affine image of the scaled aggregated row, times the node's second scale;
    • the same without the second scale;
    • the row's image under the last weight matrix, times the node's scale;
    • the scaled aggregated row plus the bias.
  The one-column scale arrays the program broadcasts several times are one and the same function each time.
-/
import proofs.«112558_j2800318677548_2_alg».proof.Proof.RefRead
import proofs.«112558_j2800318677548_2_alg».proof.Proof.Spec
import Idealize.ShloMosaic.Lib.ValueIdx

noncomputable section

namespace Cert.ReferenceIdeal.Stages

open Cert.ReferenceIdeal Cert.ReferenceIdeal.ReadP Idealize.ShloMosaic Idealize.ShloMosaic.ValueIdx

variable (x0 : (⟨S50000x128, .f32⟩ : BufTy).Contents (Elt Ideal)) (x1 x2 : (⟨S800000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x40, .f32⟩ : BufTy).Contents (Elt Ideal)) (x8 : (⟨S40, .f32⟩ : BufTy).Contents (Elt Ideal))

/-! ## The repeated one-column broadcasts are one function -/

theorem col_v40 : val_main_v40 (F := Ideal) x1 = val_main_v19 x1 := rfl
theorem col_v62 : val_main_v62 (F := Ideal) x1 = val_main_v19 x1 := rfl
theorem col_v53 : val_main_v53 (F := Ideal) x2 = val_main_v32 x2 := rfl
theorem col_v75 : val_main_v75 (F := Ideal) x2 = val_main_v32 x2 := rfl

/-! ## The index maps of the layout operations, at an entry (r, q) -/

/-- A one-column array broadcast along the columns reads, at (r, q), its entry (r, 0). -/
theorem idx20 (r : Fin 50000) (q : Fin 128) : idx_main_v20 (ix2 r q) = ix2 r (0 : Fin 1) := funext fun a => Fin.ext (by match a with | ⟨0, _⟩ => rfl | ⟨1, _⟩ => rfl)
theorem idx33 (r : Fin 50000) (q : Fin 128) : idx_main_v33 (ix2 r q) = ix2 r (0 : Fin 1) := funext fun a => Fin.ext (by match a with | ⟨0, _⟩ => rfl | ⟨1, _⟩ => rfl)
theorem idx41 (r : Fin 50000) (q : Fin 128) : idx_main_v41 (ix2 r q) = ix2 r (0 : Fin 1) := funext fun a => Fin.ext (by match a with | ⟨0, _⟩ => rfl | ⟨1, _⟩ => rfl)
theorem idx54 (r : Fin 50000) (q : Fin 128) : idx_main_v54 (ix2 r q) = ix2 r (0 : Fin 1) := funext fun a => Fin.ext (by match a with | ⟨0, _⟩ => rfl | ⟨1, _⟩ => rfl)
theorem idx63 (r : Fin 50000) (q : Fin 40) : idx_main_v63 (ix2 r q) = ix2 r (0 : Fin 1) := funext fun a => Fin.ext (by match a with | ⟨0, _⟩ => rfl | ⟨1, _⟩ => rfl)
theorem idx76 (r : Fin 50000) (q : Fin 40) : idx_main_v76 (ix2 r q) = ix2 r (0 : Fin 1) := funext fun a => Fin.ext (by match a with | ⟨0, _⟩ => rfl | ⟨1, _⟩ => rfl)

/-- A one-row array broadcast along the rows reads, at (r, q), its entry (0, q). -/
theorem idx37 (r : Fin 50000) (q : Fin 128) : idx_main_v37 (ix2 r q) = ix2 (0 : Fin 1) q := funext fun a => Fin.ext (by match a with | ⟨0, _⟩ => rfl | ⟨1, _⟩ => rfl)
theorem idx58 (r : Fin 50000) (q : Fin 128) : idx_main_v58 (ix2 r q) = ix2 (0 : Fin 1) q := funext fun a => Fin.ext (by match a with | ⟨0, _⟩ => rfl | ⟨1, _⟩ => rfl)
theorem idx79 (r : Fin 50000) (q : Fin 40) : idx_main_v79 (ix2 r q) = ix2 (0 : Fin 1) q := funext fun a => Fin.ext (by match a with | ⟨0, _⟩ => rfl | ⟨1, _⟩ => rfl)

/-- A matrix product reads, at (r, q) and contraction position k, its left operand at (r, k) and its right at (k, q). -/
theorem lidx35 (r : Fin 50000) (q k : Fin 128) : lidx_main_v35 (ix2 r q) k = ix2 r k := funext fun a => Fin.ext (by match a with | ⟨0, _⟩ => rfl | ⟨1, _⟩ => rfl)
theorem ridx35 (r : Fin 50000) (q k : Fin 128) : ridx_main_v35 (ix2 r q) k = ix2 k q := funext fun a => Fin.ext (by match a with | ⟨0, _⟩ => rfl | ⟨1, _⟩ => rfl)
theorem lidx56 (r : Fin 50000) (q k : Fin 128) : lidx_main_v56 (ix2 r q) k = ix2 r k := funext fun a => Fin.ext (by match a with | ⟨0, _⟩ => rfl | ⟨1, _⟩ => rfl)
theorem ridx56 (r : Fin 50000) (q k : Fin 128) : ridx_main_v56 (ix2 r q) k = ix2 k q := funext fun a => Fin.ext (by match a with | ⟨0, _⟩ => rfl | ⟨1, _⟩ => rfl)
theorem lidx61 (r : Fin 50000) (q : Fin 40) (k : Fin 128) : lidx_main_v61 (ix2 r q) k = ix2 r k := funext fun a => Fin.ext (by match a with | ⟨0, _⟩ => rfl | ⟨1, _⟩ => rfl)
theorem ridx61 (r : Fin 50000) (q : Fin 40) (k : Fin 128) : ridx_main_v61 (ix2 r q) k = ix2 k q := funext fun a => Fin.ext (by match a with | ⟨0, _⟩ => rfl | ⟨1, _⟩ => rfl)

/-! ## The stages -/

/-- The features times the node's scale. -/
theorem stage0 (r : Fin 50000) (q : Fin 128) :
    val_main_v21 (F := Ideal) x0 x1 (ix2 r q) = Cert.Layers.scaled x0 (val_main_v19 x1) r q := by
  rw [val_main_v21_apply, val_main_v20_apply, idx20]
  rfl

/-- The rectified affine image of the scaled aggregated row, times the node's second scale. -/
theorem stage1 (r : Fin 50000) (q : Fin 128) :
    val_main_v42 (F := Ideal) x0 x1 x2 x3 x4 (ix2 r q)
      = Cert.Layers.convScaled (val_main_v31 x0 x1 x2) (val_main_v32 x2) x3 (val_main_v36 x4) (val_main_v40 x1) r q := by
  rw [val_main_v42_apply, val_main_v39_apply, val_main_v38_apply, val_main_v35_apply, val_main_v37_apply,
    val_main_v41_apply, idx37, idx41]
  unfold Cert.Layers.convScaled Cert.Layers.conv
  refine congrArg₂ (fun a b : EReal => a * b) (congrArg₂ (fun a b : EReal => max a b)
    (congrArg₂ (fun a b : EReal => a + b) (Finset.sum_congr rfl fun k _ => ?_) rfl) ?_) rfl
  · rw [lidx35, ridx35, val_main_v34_apply, val_main_v33_apply, idx33]
    rfl
  · rw [val_main_call2_v0_apply]
    rfl

/-- The rectified affine image of the scaled aggregated row. -/
theorem stage2 (r : Fin 50000) (q : Fin 128) :
    val_main_v60 (F := Ideal) x0 x1 x2 x3 x4 x5 x6 (ix2 r q)
      = Cert.Layers.conv (val_main_v52 x0 x1 x2 x3 x4) (val_main_v53 x2) x5 (val_main_v57 x6) r q := by
  rw [val_main_v60_apply, val_main_v59_apply, val_main_v56_apply, val_main_v58_apply, idx58]
  unfold Cert.Layers.conv
  refine congrArg₂ (fun a b : EReal => max a b)
    (congrArg₂ (fun a b : EReal => a + b) (Finset.sum_congr rfl fun k _ => ?_) rfl) ?_
  · rw [lidx56, ridx56, val_main_v55_apply, val_main_v54_apply, idx54]
    rfl
  · rw [val_main_call3_v0_apply]
    rfl

/-- The row's image under the last weight matrix, times the node's scale. -/
theorem stage3 (r : Fin 50000) (q : Fin 40) :
    val_main_v64 (F := Ideal) x0 x1 x2 x3 x4 x5 x6 x7 (ix2 r q)
      = Cert.Layers.projectScaled (val_main_v60 x0 x1 x2 x3 x4 x5 x6) x7 (val_main_v62 x1) r q := by
  rw [val_main_v64_apply, val_main_v61_apply, val_main_v63_apply, idx63]
  unfold Cert.Layers.projectScaled
  refine congrArg₂ (fun a b : EReal => a * b) (Finset.sum_congr rfl fun k _ => ?_) rfl
  rw [lidx61, ridx61]

/-- The scaled aggregated row plus the bias. -/
theorem stage4 (r : Fin 50000) (q : Fin 40) :
    val_main_v80 (F := Ideal) x0 x1 x2 x3 x4 x5 x6 x7 x8 (ix2 r q)
      = Cert.Layers.scaledBias (val_main_v74 x0 x1 x2 x3 x4 x5 x6 x7) (val_main_v75 x2) (val_main_v78 x8) r q := by
  rw [val_main_v80_apply, val_main_v77_apply, val_main_v76_apply, val_main_v79_apply, idx76, idx79]
  rfl

end Cert.ReferenceIdeal.Stages

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«112558_j2800318677548_2_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.Region0.lean ====
/-
  Region 0: every row of the feature array times its node's scale.

  The region walks 25 blocks of 2000 consecutive rows.  At block t the body loads rows 2000·t … 2000·t + 1999 of the
  features ([2000, 128]) and the same rows of the one-column scale ([2000, 1]), multiplies each row by its scale, and
  stores the product as the same rows of the result (the change of float format is the identity on extended reals).
  So the array the region leaves is, entry by entry, X[r, q] · s[r]: what a block writes depends only on the rows it
  covers, the blocks are pairwise disjoint, and every row r lies in block r / 2000.
-/
import proofs.«112558_j2800318677548_2_alg».proof.Proof.Gen.KernelIdeal.Frame
import proofs.«112558_j2800318677548_2_alg».proof.Proof.Spec
import proofs.«112558_j2800318677548_2_alg».proof.Proof.LibRowBlocks
import proofs.«112558_j2800318677548_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body at an index of the block: entry (p, q) of the stored block is the loaded row's entry times the row's scale. -/
theorem out_apply (x0 : Vec Ideal S2000x128 .f32) (x1 : Vec Ideal S2000x1 .f32) (p : Fin 2000) (q : Fin 128) :
    out0_2 (F := Ideal) x0 x1 (ix2 p q) = Cert.Layers.scaled x0 x1 p q := by
  unfold out0_2
  rw [View.canon_unit_zero hz]
  simp only [View.ld_unit_zero (S := S2000x128) hz, View.ld_unit_zero (S := S2000x1) hz]
  unfold k0_pay1
  rw [shapeCast_self]
  show x0 (ix2 p q) * broadcastTo S2000x128 x1 broadcasts_S2000x1_S2000x128 (ix2 p q) = x0 (ix2 p q) * x1 (ix2 p 0)
  exact congrArg (x0 (ix2 p q) * ·) (Cert.Lib.Columns.broadcastTo_a1_ab_apply x1 broadcasts_S2000x1_S2000x128 p q)

/-- The index maps over the grid: every window's block row is the point's number, its block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What the array holds where covered: each row of the features scaled by the node's scale. -/
abbrev G (X : Cert.Layers.Mat 50000 128) (s : Cert.Layers.Mat 50000 1) : S50000x128.Idx → EReal :=
  fun i => Cert.Layers.scaled X s (i 0) (i 1)

/-- Row p of the block of point t is row 2000·t + p of the array. -/
def row (t : Fin cfg0.N) (p : Fin 2000) : Fin 50000 :=
  ⟨t.val * 2000 + p.val, by have := t.isLt; have hN : cfg0.N = 25 := N_0; have := p.isLt; omega⟩

theorem emb0 (t : Fin cfg0.N) (p : Fin 2000) (q : Fin 128) :
    ((cfg0.win 0).blk t).view.emb (ix2 p q) = ix2 (row t p) q := by
  obtain ⟨e0, e1, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 128 + 1 * q.val = q.val; omega

theorem emb1 (t : Fin cfg0.N) (p : Fin 2000) :
    ((cfg0.win 1).blk t).view.emb (ix2 p (0 : Fin 1)) = ix2 (row t p) (0 : Fin 1) := by
  obtain ⟨-, -, e0, e1, -⟩ := idx_facts t
  funext a; apply Fin.ext
  match a with
  | ⟨0, _⟩ => show win0_1.index t (0 : Fin 2) * 2000 + 1 * p.val = t.val * 2000 + p.val; omega
  | ⟨1, _⟩ => show win0_1.index t (1 : Fin 2) * 1 + 1 * 0 = 0; omega

theorem emb2 (t : Fin cfg0.N) (p : Fin 2000) (q : Fin 128) :
    ((cfg0.win 2).blk t).view.emb (ix2 p q) = ix2 (row t p) q := by
  obtain ⟨-, -, -, -, e0, e1⟩ := idx_facts t
  funext a; apply Fin.ext
  match a with
  | ⟨0, _⟩ => show win0_2.index t (0 : Fin 2) * 2000 + 1 * p.val = t.val * 2000 + p.val; omega
  | ⟨1, _⟩ => show win0_2.index t (1 : Fin 2) * 128 + 1 * q.val = q.val; omega

theorem read0 (c : Dev nD) (t : Fin cfg0.N) (p : Fin 2000) (q : Fin 128) :
    (iblk0 V c 0 t (ix2 p q) : EReal) = V c main_arg0 (ix2 (row t p) q) := by
  show V c main_arg0 (((cfg0.win 0).blk t).view.emb (ix2 p q)) = _
  rw [emb0]

theorem read1 (c : Dev nD) (t : Fin cfg0.N) (p : Fin 2000) :
    (iblk0 V c 1 t (ix2 p (0 : Fin 1)) : EReal) = V c main_v13 (ix2 (row t p) (0 : Fin 1)) := by
  show V c main_v13 (((cfg0.win 1).blk t).view.emb (ix2 p (0 : Fin 1))) = _
  rw [emb1]

theorem flushed_eq (c : Dev nD) (t : Fin cfg0.N) :
    (dat0 (F := Ideal) V c).flushed 2 t = ((cfg0.win 2).blk t).view.read (Elt Ideal) (G (V c main_arg0) (V c main_v13)) := by
  show (cfg0.win 2).cut (grid0.coords t) ((dat0 V c).after 2 t) = _
  rw [after0_2]
  funext j
  obtain ⟨p, q, rfl⟩ : ∃ (p : Fin 2000) (q : Fin 128), j = ix2 p q := ⟨j 0, j 1, eq_ix2 j⟩
  show out0_2 (iblk0 V c 0 t) (iblk0 V c 1 t) (ix2 p q) = G (V c main_arg0) (V c main_v13) (((cfg0.win 2).blk t).view.emb (ix2 p q))
  refine (out_apply (iblk0 V c 0 t) (iblk0 V c 1 t) p q).trans ?_
  rw [emb2]
  show Cert.Layers.scaled (iblk0 V c 0 t) (iblk0 V c 1 t) p q = Cert.Layers.scaled (V c main_arg0) (V c main_v13) (row t p) q
  unfold Cert.Layers.scaled
  rw [read0, read1]

/-- An index is in the block of point t iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v24).slice (win0_2.rect t)).set ↔ _
  rw [View.set_slice_whole, Rect.mem_set_unit]
  exact Iff.rfl

/-- Every row is in the block of the point numbered by its quotient by 2000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  refine ⟨⟨(i 0).val / 2000, by omega⟩, flush0_2 _, ?_⟩
  obtain ⟨-, -, -, -, e0, e1⟩ := idx_facts ⟨(i 0).val / 2000, by omega⟩
  rw [mem_blk]
  intro a
  match a with
  | ⟨0, _⟩ =>
    show win0_2.index _ (0 : Fin 2) * 2000 ≤ (i 0).val ∧ (i 0).val < win0_2.index _ (0 : Fin 2) * 2000 + 2000
    rw [e0]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e1]; omega

/-- The array region 0 leaves: every row of its first operand scaled by the node's scale. -/
theorem final (c : Dev nD) (r : Fin 50000) (q : Fin 128) :
    (dat0 (F := Ideal) V c).arrAt 2 cfg0.N (ix2 r q) = Cert.Layers.scaled (V c main_arg0) (V c main_v13) r q :=
  congrFun ((dat0 (F := Ideal) V c).arrAt_eq_of_cover 2 (G (V c main_arg0) (V c main_v13)) (fun t _ => flushed_eq V c t) cover) (ix2 r q)

end Cert.KernelIdeal.Region0

end
-- ==== Proof.Region1.lean ====
/-
  Region 1: the rectified affine image of every scaled row, scaled again by the node's second scale.

  The region walks 25 blocks of 2000 consecutive rows.  At block t the body loads rows 2000·t … 2000·t + 1999 of the
  aggregated array A ([2000, 128]), the same rows of the two one-column scales sᵢ and sₒ ([2000, 1] each), and the
  whole weight matrix W ([128, 128]) and the whole bias row b ([1, 128]).  It scales each row by sᵢ, multiplies the
  scaled block by W on the matrix unit into a zero accumulator, adds the bias row to every row, takes the maximum with
  zero, scales each row by sₒ, and stores the result as the same rows of the output (every change of float format is
  the identity on extended reals).  Entry (p, q) of the stored block is therefore
  max(Σₖ (A[r, k] · sᵢ[r]) · W[k, q] + b[q], 0) · sₒ[r] with r = 2000·t + p: it depends on row r of the row-indexed
  operands alone.  The blocks are disjoint and every row r lies in block r / 2000, so the array the region leaves is
  that function of the arrays it finds, entry by entry.
-/
import proofs.«112558_j2800318677548_2_alg».proof.Proof.Gen.KernelIdeal.Frame
import proofs.«112558_j2800318677548_2_alg».proof.Proof.Spec
import proofs.«112558_j2800318677548_2_alg».proof.Proof.LibRowBlocks
import proofs.«112558_j2800318677548_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The body at an index -/

/-- The printed dimension numbers are the plain ones: rows × contraction times contraction × columns. -/
theorem dims_plain : dot_S2000x128_S128x128_S2000x128_1_0_0_1_n_n = DotDims.plain 2000 128 128 := rfl

/-- The body's arithmetic at row p, column q of its block: the rectified affine image of the scaled row p, times the
    row's second scale. -/
theorem body_apply (x0 : Vec Ideal S2000x128 .f32) (x1 : Vec Ideal S2000x1 .f32) (x2 : Vec Ideal S128x128 .f32)
    (x3 : Vec Ideal S1x128 .f32) (x4 : Vec Ideal S2000x1 .f32) (p : Fin 2000) (q : Fin 128) :
    k1_pay1 x0 x1 x2 x3 x4 (ix2 p q) = Cert.Layers.convScaled x0 x1 x2 x3 x4 p q := by
  unfold k1_pay1 Cert.Layers.convScaled Cert.Layers.conv
  rw [truncf_apply, mulf_apply]
  refine congrArg₂ (· * ·) ?_ ?_
  · rw [maximumf_apply, addf_apply, broadcast_apply, broadcastTo_1b_ab_apply, shapeCast_self, dims_plain,
      Cert.Lib.PlainDot.matmul_plain_zero_apply, shapeCast_self, shapeCast_self]
    refine congrArg₂ max (congrArg₂ (· + ·) (Finset.sum_congr rfl fun k _ => ?_) rfl) rfl
    rw [truncf_apply, truncf_apply, mulf_apply, Cert.Lib.Columns.broadcastTo_a1_ab_apply]
  · rw [Cert.Lib.Columns.broadcastTo_a1_ab_apply, shapeCast_self]

/-- What the body leaves in the output's buffer, at an index: the body loads its whole buffers and its one store
    covers the output's. -/
theorem out_apply (x0 : Vec Ideal S2000x128 .f32) (x1 : Vec Ideal S2000x1 .f32) (x2 : Vec Ideal S128x128 .f32)
    (x3 : Vec Ideal S1x128 .f32) (x4 : Vec Ideal S2000x1 .f32) (p : Fin 2000) (q : Fin 128) :
    out1_5 (F := Ideal) x0 x1 x2 x3 x4 (ix2 p q) = Cert.Layers.convScaled x0 x1 x2 x3 x4 p q := by
  unfold out1_5
  rw [View.canon_unit_zero hz]
  simp only [View.ld_unit_zero (S := S2000x128) hz, View.ld_unit_zero (S := S2000x1) hz,
    View.ld_unit_zero (S := S128x128) hz, View.ld_unit_zero (S := S1x128) hz]
  exact body_apply x0 x1 x2 x3 x4 p q

/-- Row p of a block of rows gives what row r of the whole arrays gives, when the block's row p is the whole
    arrays' row r and the small operands are the same. -/
theorem convScaled_of_rows {B N : Nat} (A : Cert.Layers.Mat N 128) (si : Cert.Layers.Mat N 1)
    (W : Cert.Layers.Mat 128 128) (b : Cert.Layers.Mat 1 128) (so : Cert.Layers.Mat N 1)
    (x0 : Cert.Layers.Mat B 128) (x1 : Cert.Layers.Mat B 1) (x2 : Cert.Layers.Mat 128 128)
    (x3 : Cert.Layers.Mat 1 128) (x4 : Cert.Layers.Mat B 1) (p : Fin B) (r : Fin N) (q : Fin 128)
    (h0 : ∀ k : Fin 128, x0 (ix2 p k) = A (ix2 r k)) (h1 : x1 (ix2 p 0) = si (ix2 r 0))
    (h2 : ∀ k : Fin 128, x2 (ix2 k q) = W (ix2 k q)) (h3 : x3 (ix2 0 q) = b (ix2 0 q))
    (h4 : x4 (ix2 p 0) = so (ix2 r 0)) :
    Cert.Layers.convScaled x0 x1 x2 x3 x4 p q = Cert.Layers.convScaled A si W b so r q := by
  unfold Cert.Layers.convScaled Cert.Layers.conv
  rw [h1, h3, h4]
  refine congrArg₂ (· * ·) (congrArg₂ max (congrArg₂ (· + ·) (Finset.sum_congr rfl fun k _ => ?_) rfl) rfl) rfl
  rw [h0, h2]

/-! ## The blocks -/

/-- The index maps over the grid: a row-indexed window's block row is the point's number and its block column 0; the
    weight's and the bias's block is the whole array at every point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- What the array holds where covered: the rectified affine image of each scaled row, times the second scale. -/
abbrev G (A : Cert.Layers.Mat 50000 128) (si : Cert.Layers.Mat 50000 1) (W : Cert.Layers.Mat 128 128)
    (b : Cert.Layers.Mat 1 128) (so : Cert.Layers.Mat 50000 1) : S50000x128.Idx → EReal :=
  fun i => Cert.Layers.convScaled A si W b so (i 0) (i 1)

/-- Row p of the block of point t is row 2000·t + p of the array. -/
def row (t : Fin cfg1.N) (p : Fin 2000) : Fin 50000 :=
  ⟨t.val * 2000 + p.val, by have := t.isLt; have hN : cfg1.N = 25 := N_1; have := p.isLt; omega⟩

theorem emb0 (t : Fin cfg1.N) (p : Fin 2000) (k : Fin 128) :
    ((cfg1.win 0).blk t).view.emb (ix2 p k) = ix2 (row t p) k := by
  obtain ⟨e0, e1, -⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

theorem emb1 (t : Fin cfg1.N) (p : Fin 2000) :
    ((cfg1.win 1).blk t).view.emb (ix2 p (0 : Fin 1)) = ix2 (row t p) (0 : Fin 1) := by
  obtain ⟨-, -, e0, e1, -⟩ := idx_facts t
  funext a; apply Fin.ext
  match a with
  | ⟨0, _⟩ => show win1_1.index t (0 : Fin 2) * 2000 + 1 * p.val = t.val * 2000 + p.val; omega
  | ⟨1, _⟩ => show win1_1.index t (1 : Fin 2) * 1 + 1 * 0 = 0; omega

theorem emb2 (t : Fin cfg1.N) (k : Fin 128) (q : Fin 128) :
    ((cfg1.win 2).blk t).view.emb (ix2 k q) = ix2 k q := by
  obtain ⟨-, -, -, -, e0, e1, -⟩ := idx_facts t
  funext a; apply Fin.ext
  match a with
  | ⟨0, _⟩ => show win1_2.index t (0 : Fin 2) * 128 + 1 * k.val = k.val; omega
  | ⟨1, _⟩ => show win1_2.index t (1 : Fin 2) * 128 + 1 * q.val = q.val; omega

theorem emb3 (t : Fin cfg1.N) (q : Fin 128) :
    ((cfg1.win 3).blk t).view.emb (ix2 (0 : Fin 1) q) = ix2 (0 : Fin 1) q := by
  obtain ⟨-, -, -, -, -, -, e0, e1, -⟩ := idx_facts t
  funext a; apply Fin.ext
  match a with
  | ⟨0, _⟩ => show win1_3.index t (0 : Fin 2) * 1 + 1 * 0 = 0; omega
  | ⟨1, _⟩ => show win1_3.index t (1 : Fin 2) * 128 + 1 * q.val = q.val; omega

theorem emb4 (t : Fin cfg1.N) (p : Fin 2000) :
    ((cfg1.win 4).blk t).view.emb (ix2 p (0 : Fin 1)) = ix2 (row t p) (0 : Fin 1) := by
  obtain ⟨-, -, -, -, -, -, -, -, e0, e1, -⟩ := idx_facts t
  funext a; apply Fin.ext
  match a with
  | ⟨0, _⟩ => show win1_4.index t (0 : Fin 2) * 2000 + 1 * p.val = t.val * 2000 + p.val; omega
  | ⟨1, _⟩ => show win1_4.index t (1 : Fin 2) * 1 + 1 * 0 = 0; omega

theorem emb5 (t : Fin cfg1.N) (p : Fin 2000) (q : Fin 128) :
    ((cfg1.win 5).blk t).view.emb (ix2 p q) = ix2 (row t p) q := by
  obtain ⟨-, -, -, -, -, -, -, -, -, -, e0, e1⟩ := idx_facts t
  funext a; apply Fin.ext
  match a with
  | ⟨0, _⟩ => show win1_5.index t (0 : Fin 2) * 2000 + 1 * p.val = t.val * 2000 + p.val; omega
  | ⟨1, _⟩ => show win1_5.index t (1 : Fin 2) * 128 + 1 * q.val = q.val; omega

/-- Each input block read at an index is its array read at the row and column the block's place says. -/
theorem read0 (c : Dev nD) (t : Fin cfg1.N) (p : Fin 2000) (k : Fin 128) :
    (iblk1 V c 0 t (ix2 p k) : EReal) = V c main_v35 (ix2 (row t p) k) := by
  show V c main_v35 (((cfg1.win 0).blk t).view.emb (ix2 p k)) = _
  rw [emb0]

theorem read1 (c : Dev nD) (t : Fin cfg1.N) (p : Fin 2000) :
    (iblk1 V c 1 t (ix2 p (0 : Fin 1)) : EReal) = V c main_v20 (ix2 (row t p) (0 : Fin 1)) := by
  show V c main_v20 (((cfg1.win 1).blk t).view.emb (ix2 p (0 : Fin 1))) = _
  rw [emb1]

theorem read2 (c : Dev nD) (t : Fin cfg1.N) (k : Fin 128) (q : Fin 128) :
    (iblk1 V c 2 t (ix2 k q) : EReal) = V c main_arg3 (ix2 k q) := by
  show V c main_arg3 (((cfg1.win 2).blk t).view.emb (ix2 k q)) = _
  rw [emb2]

theorem read3 (c : Dev nD) (t : Fin cfg1.N) (q : Fin 128) :
    (iblk1 V c 3 t (ix2 (0 : Fin 1) q) : EReal) = V c main_v21 (ix2 (0 : Fin 1) q) := by
  show V c main_v21 (((cfg1.win 3).blk t).view.emb (ix2 (0 : Fin 1) q)) = _
  rw [emb3]

theorem read4 (c : Dev nD) (t : Fin cfg1.N) (p : Fin 2000) :
    (iblk1 V c 4 t (ix2 p (0 : Fin 1)) : EReal) = V c main_v13 (ix2 (row t p) (0 : Fin 1)) := by
  show V c main_v13 (((cfg1.win 4).blk t).view.emb (ix2 p (0 : Fin 1))) = _
  rw [emb4]

/-- What point t writes back is block t of G of the arrays as the region finds them. -/
theorem flushed_eq (c : Dev nD) (t : Fin cfg1.N) :
    (dat1 (F := Ideal) V c).flushed 5 t
      = ((cfg1.win 5).blk t).view.read (Elt Ideal)
          (G (V c main_v35) (V c main_v20) (V c main_arg3) (V c main_v21) (V c main_v13)) := by
  show (cfg1.win 5).cut (grid1.coords t) ((dat1 V c).after 5 t) = _
  rw [after1_5]
  funext j
  obtain ⟨p, q, rfl⟩ : ∃ (p : Fin 2000) (q : Fin 128), j = ix2 p q := ⟨j 0, j 1, eq_ix2 j⟩
  show out1_5 (iblk1 V c 0 t) (iblk1 V c 1 t) (iblk1 V c 2 t) (iblk1 V c 3 t) (iblk1 V c 4 t) (ix2 p q)
    = G (V c main_v35) (V c main_v20) (V c main_arg3) (V c main_v21) (V c main_v13)
        (((cfg1.win 5).blk t).view.emb (ix2 p q))
  refine (out_apply (iblk1 V c 0 t) (iblk1 V c 1 t) (iblk1 V c 2 t) (iblk1 V c 3 t) (iblk1 V c 4 t) p q).trans ?_
  rw [emb5]
  show Cert.Layers.convScaled (iblk1 V c 0 t) (iblk1 V c 1 t) (iblk1 V c 2 t) (iblk1 V c 3 t) (iblk1 V c 4 t) p q
    = Cert.Layers.convScaled (V c main_v35) (V c main_v20) (V c main_arg3) (V c main_v21) (V c main_v13) (row t p) q
  exact convScaled_of_rows (V c main_v35) (V c main_v20) (V c main_arg3) (V c main_v21) (V c main_v13)
    (iblk1 V c 0 t) (iblk1 V c 1 t) (iblk1 V c 2 t) (iblk1 V c 3 t) (iblk1 V c 4 t) p (row t p) q
    (fun k => read0 V c t p k) (read1 V c t p) (fun k => read2 V c t k q) (read3 V c t q) (read4 V c t p)

/-! ## The cover -/

/-- An index is in the block of point t iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v36).slice (win1_5.rect t)).set ↔ _
  rw [View.set_slice_whole, Rect.mem_set_unit]
  exact Iff.rfl

/-- Every row is in the block of the point numbered by its quotient by 2000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  refine ⟨⟨(i 0).val / 2000, by omega⟩, flush1_5 _, ?_⟩
  obtain ⟨-, -, -, -, -, -, -, -, -, -, e0, e1⟩ := idx_facts ⟨(i 0).val / 2000, by omega⟩
  rw [mem_blk]
  intro a
  match a with
  | ⟨0, _⟩ =>
    show win1_5.index _ (0 : Fin 2) * 2000 ≤ (i 0).val ∧ (i 0).val < win1_5.index _ (0 : Fin 2) * 2000 + 2000
    rw [e0]; show (i 0).val / 2000 * 2000 ≤ (i 0).val ∧ (i 0).val < (i 0).val / 2000 * 2000 + 2000; omega
  | ⟨1, _⟩ =>
    show win1_5.index _ (1 : Fin 2) * 128 ≤ (i 1).val ∧ (i 1).val < win1_5.index _ (1 : Fin 2) * 128 + 128
    rw [e1]; omega

/-- The array region 1 leaves: the rectified affine image of every scaled row of its first operand, times the node's
    second scale. -/
theorem final (c : Dev nD) (r : Fin 50000) (q : Fin 128) :
    (dat1 (F := Ideal) V c).arrAt 5 cfg1.N (ix2 r q)
      = Cert.Layers.convScaled (V c main_v35) (V c main_v20) (V c main_arg3) (V c main_v21) (V c main_v13) r q :=
  congrFun ((dat1 (F := Ideal) V c).arrAt_eq_of_cover 5
    (G (V c main_v35) (V c main_v20) (V c main_arg3) (V c main_v21) (V c main_v13))
    (fun t _ => flushed_eq V c t) cover) (ix2 r q)

end Cert.KernelIdeal.Region1

end
-- ==== Proof.Region2.lean ====
/-
  Region 2: the rectified affine image of every scaled row.

  The region walks 25 blocks of 2000 consecutive rows.  At block t the body loads rows 2000·t … 2000·t + 1999 of the
  aggregated array A ([2000, 128]) and the same rows of the one-column scale sᵢ ([2000, 1]), and the whole weight
  matrix W ([128, 128]) and the whole bias row b ([1, 128]).  It scales each row by its node's scale, multiplies the
  scaled block by W on the matrix unit into a zero accumulator, adds the bias row to every row, takes the maximum with
  zero, and stores the result as the same rows of the output (every change of float format is the identity on extended
  reals).  Entry (p, q) of the stored block is therefore max(Σₖ (A[r, k] · sᵢ[r]) · W[k, q] + b[q], 0) with
  r = 2000·t + p: it depends on row r of the row-indexed operands alone.  The blocks are disjoint and every row r lies
  in block r / 2000, so the array the region leaves is that function of the arrays it finds, entry by entry.
-/
import proofs.«112558_j2800318677548_2_alg».proof.Proof.Gen.KernelIdeal.Frame
import proofs.«112558_j2800318677548_2_alg».proof.Proof.Spec
import proofs.«112558_j2800318677548_2_alg».proof.Proof.LibRowBlocks
import proofs.«112558_j2800318677548_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The body at an index -/

/-- The printed dimension numbers are the plain ones: rows × contraction times contraction × columns. -/
theorem dims_plain : dot_S2000x128_S128x128_S2000x128_1_0_0_1_n_n = DotDims.plain 2000 128 128 := rfl

/-- The body's arithmetic at row p, column q of its block: the rectified affine image of the scaled row p. -/
theorem body_apply (x0 : Vec Ideal S2000x128 .f32) (x1 : Vec Ideal S2000x1 .f32) (x2 : Vec Ideal S128x128 .f32)
    (x3 : Vec Ideal S1x128 .f32) (p : Fin 2000) (q : Fin 128) :
    k2_pay1 x0 x1 x2 x3 (ix2 p q) = Cert.Layers.conv x0 x1 x2 x3 p q := by
  unfold k2_pay1 Cert.Layers.conv
  rw [truncf_apply, maximumf_apply, addf_apply, broadcast_apply, broadcastTo_1b_ab_apply, shapeCast_self, dims_plain,
    Cert.Lib.PlainDot.matmul_plain_zero_apply, shapeCast_self, shapeCast_self]
  refine congrArg₂ max (congrArg₂ (· + ·) (Finset.sum_congr rfl fun k _ => ?_) rfl) rfl
  rw [truncf_apply, truncf_apply, mulf_apply, Cert.Lib.Columns.broadcastTo_a1_ab_apply]

/-- What the body leaves in the output's buffer, at an index: the body loads its whole buffers and its one store
    covers the output's. -/
theorem out_apply (x0 : Vec Ideal S2000x128 .f32) (x1 : Vec Ideal S2000x1 .f32) (x2 : Vec Ideal S128x128 .f32)
    (x3 : Vec Ideal S1x128 .f32) (p : Fin 2000) (q : Fin 128) :
    out2_4 (F := Ideal) x0 x1 x2 x3 (ix2 p q) = Cert.Layers.conv x0 x1 x2 x3 p q := by
  unfold out2_4
  rw [View.canon_unit_zero hz]
  simp only [View.ld_unit_zero (S := S2000x128) hz, View.ld_unit_zero (S := S2000x1) hz,
    View.ld_unit_zero (S := S128x128) hz, View.ld_unit_zero (S := S1x128) hz]
  exact body_apply x0 x1 x2 x3 p q

/-- Row p of a block of rows gives what row r of the whole arrays gives, when the block's row p is the whole
    arrays' row r and the small operands are the same. -/
theorem conv_of_rows {B N : Nat} (A : Cert.Layers.Mat N 128) (si : Cert.Layers.Mat N 1) (W : Cert.Layers.Mat 128 128)
    (b : Cert.Layers.Mat 1 128) (x0 : Cert.Layers.Mat B 128) (x1 : Cert.Layers.Mat B 1) (x2 : Cert.Layers.Mat 128 128)
    (x3 : Cert.Layers.Mat 1 128) (p : Fin B) (r : Fin N) (q : Fin 128)
    (h0 : ∀ k : Fin 128, x0 (ix2 p k) = A (ix2 r k)) (h1 : x1 (ix2 p 0) = si (ix2 r 0))
    (h2 : ∀ k : Fin 128, x2 (ix2 k q) = W (ix2 k q)) (h3 : x3 (ix2 0 q) = b (ix2 0 q)) :
    Cert.Layers.conv x0 x1 x2 x3 p q = Cert.Layers.conv A si W b r q := by
  unfold Cert.Layers.conv
  rw [h1, h3]
  refine congrArg₂ max (congrArg₂ (· + ·) (Finset.sum_congr rfl fun k _ => ?_) rfl) rfl
  rw [h0, h2]

/-! ## The blocks -/

/-- The index maps over the grid: a row-indexed window's block row is the point's number and its block column 0; the
    weight's and the bias's block is the whole array at every point. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What the array holds where covered: the rectified affine image of each scaled row. -/
abbrev G (A : Cert.Layers.Mat 50000 128) (si : Cert.Layers.Mat 50000 1) (W : Cert.Layers.Mat 128 128)
    (b : Cert.Layers.Mat 1 128) : S50000x128.Idx → EReal :=
  fun i => Cert.Layers.conv A si W b (i 0) (i 1)

/-- Row p of the block of point t is row 2000·t + p of the array. -/
def row (t : Fin cfg2.N) (p : Fin 2000) : Fin 50000 :=
  ⟨t.val * 2000 + p.val, by have := t.isLt; have hN : cfg2.N = 25 := N_2; have := p.isLt; omega⟩

theorem emb0 (t : Fin cfg2.N) (p : Fin 2000) (k : Fin 128) :
    ((cfg2.win 0).blk t).view.emb (ix2 p k) = ix2 (row t p) k := by
  obtain ⟨e0, e1, -⟩ := idx_facts t
  funext a; apply Fin.ext
  match a with
  | ⟨0, _⟩ => show win2_0.index t (0 : Fin 2) * 2000 + 1 * p.val = t.val * 2000 + p.val; omega
  | ⟨1, _⟩ => show win2_0.index t (1 : Fin 2) * 128 + 1 * k.val = k.val; omega

theorem emb1 (t : Fin cfg2.N) (p : Fin 2000) :
    ((cfg2.win 1).blk t).view.emb (ix2 p (0 : Fin 1)) = ix2 (row t p) (0 : Fin 1) := by
  obtain ⟨-, -, e0, e1, -⟩ := idx_facts t
  funext a; apply Fin.ext
  match a with
  | ⟨0, _⟩ => show win2_1.index t (0 : Fin 2) * 2000 + 1 * p.val = t.val * 2000 + p.val; omega
  | ⟨1, _⟩ => show win2_1.index t (1 : Fin 2) * 1 + 1 * 0 = 0; omega

theorem emb2 (t : Fin cfg2.N) (k : Fin 128) (q : Fin 128) :
    ((cfg2.win 2).blk t).view.emb (ix2 k q) = ix2 k q := by
  obtain ⟨-, -, -, -, e0, e1, -⟩ := idx_facts t
  funext a; apply Fin.ext
  match a with
  | ⟨0, _⟩ => show win2_2.index t (0 : Fin 2) * 128 + 1 * k.val = k.val; omega
  | ⟨1, _⟩ => show win2_2.index t (1 : Fin 2) * 128 + 1 * q.val = q.val; omega

theorem emb3 (t : Fin cfg2.N) (q : Fin 128) :
    ((cfg2.win 3).blk t).view.emb (ix2 (0 : Fin 1) q) = ix2 (0 : Fin 1) q := by
  obtain ⟨-, -, -, -, -, -, e0, e1, -⟩ := idx_facts t
  funext a; apply Fin.ext
  match a with
  | ⟨0, _⟩ => show win2_3.index t (0 : Fin 2) * 1 + 1 * 0 = 0; omega
  | ⟨1, _⟩ => show win2_3.index t (1 : Fin 2) * 128 + 1 * q.val = q.val; omega

theorem emb4 (t : Fin cfg2.N) (p : Fin 2000) (q : Fin 128) :
    ((cfg2.win 4).blk t).view.emb (ix2 p q) = ix2 (row t p) q := by
  obtain ⟨-, -, -, -, -, -, -, -, e0, e1⟩ := idx_facts t
  funext a; apply Fin.ext
  match a with
  | ⟨0, _⟩ => show win2_4.index t (0 : Fin 2) * 2000 + 1 * p.val = t.val * 2000 + p.val; omega
  | ⟨1, _⟩ => show win2_4.index t (1 : Fin 2) * 128 + 1 * q.val = q.val; omega

/-- Each input block read at an index is its array read at the row and column the block's place says. -/
theorem read0 (c : Dev nD) (t : Fin cfg2.N) (p : Fin 2000) (k : Fin 128) :
    (iblk2 V c 0 t (ix2 p k) : EReal) = V c main_v47 (ix2 (row t p) k) := by
  show V c main_v47 (((cfg2.win 0).blk t).view.emb (ix2 p k)) = _
  rw [emb0]

theorem read1 (c : Dev nD) (t : Fin cfg2.N) (p : Fin 2000) :
    (iblk2 V c 1 t (ix2 p (0 : Fin 1)) : EReal) = V c main_v20 (ix2 (row t p) (0 : Fin 1)) := by
  show V c main_v20 (((cfg2.win 1).blk t).view.emb (ix2 p (0 : Fin 1))) = _
  rw [emb1]

theorem read2 (c : Dev nD) (t : Fin cfg2.N) (k : Fin 128) (q : Fin 128) :
    (iblk2 V c 2 t (ix2 k q) : EReal) = V c main_arg5 (ix2 k q) := by
  show V c main_arg5 (((cfg2.win 2).blk t).view.emb (ix2 k q)) = _
  rw [emb2]

theorem read3 (c : Dev nD) (t : Fin cfg2.N) (q : Fin 128) :
    (iblk2 V c 3 t (ix2 (0 : Fin 1) q) : EReal) = V c main_v22 (ix2 (0 : Fin 1) q) := by
  show V c main_v22 (((cfg2.win 3).blk t).view.emb (ix2 (0 : Fin 1) q)) = _
  rw [emb3]

/-- What point t writes back is block t of G of the arrays as the region finds them. -/
theorem flushed_eq (c : Dev nD) (t : Fin cfg2.N) :
    (dat2 (F := Ideal) V c).flushed 4 t
      = ((cfg2.win 4).blk t).view.read (Elt Ideal) (G (V c main_v47) (V c main_v20) (V c main_arg5) (V c main_v22)) := by
  show (cfg2.win 4).cut (grid2.coords t) ((dat2 V c).after 4 t) = _
  rw [after2_4]
  funext j
  obtain ⟨p, q, rfl⟩ : ∃ (p : Fin 2000) (q : Fin 128), j = ix2 p q := ⟨j 0, j 1, eq_ix2 j⟩
  show out2_4 (iblk2 V c 0 t) (iblk2 V c 1 t) (iblk2 V c 2 t) (iblk2 V c 3 t) (ix2 p q)
    = G (V c main_v47) (V c main_v20) (V c main_arg5) (V c main_v22) (((cfg2.win 4).blk t).view.emb (ix2 p q))
  refine (out_apply (iblk2 V c 0 t) (iblk2 V c 1 t) (iblk2 V c 2 t) (iblk2 V c 3 t) p q).trans ?_
  rw [emb4]
  show Cert.Layers.conv (iblk2 V c 0 t) (iblk2 V c 1 t) (iblk2 V c 2 t) (iblk2 V c 3 t) p q
    = Cert.Layers.conv (V c main_v47) (V c main_v20) (V c main_arg5) (V c main_v22) (row t p) q
  exact conv_of_rows (V c main_v47) (V c main_v20) (V c main_arg5) (V c main_v22)
    (iblk2 V c 0 t) (iblk2 V c 1 t) (iblk2 V c 2 t) (iblk2 V c 3 t) p (row t p) q
    (fun k => read0 V c t p k) (read1 V c t p) (fun k => read2 V c t k q) (read3 V c t q)

/-! ## The cover -/

/-- An index is in the block of point t iff each coordinate is in the block's range on its axis. -/
theorem mem_blk (t : Fin cfg2.N) (i : S50000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v48).slice (win2_4.rect t)).set ↔ _
  rw [View.set_slice_whole, Rect.mem_set_unit]
  exact Iff.rfl

/-- Every row is in the block of the point numbered by its quotient by 2000. -/
theorem cover (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 25 := N_2
  refine ⟨⟨(i 0).val / 2000, by omega⟩, flush2_4 _, ?_⟩
  obtain ⟨-, -, -, -, -, -, -, -, e0, e1⟩ := idx_facts ⟨(i 0).val / 2000, by omega⟩
  rw [mem_blk]
  intro a
  match a with
  | ⟨0, _⟩ =>
    show win2_4.index _ (0 : Fin 2) * 2000 ≤ (i 0).val ∧ (i 0).val < win2_4.index _ (0 : Fin 2) * 2000 + 2000
    rw [e0]; show (i 0).val / 2000 * 2000 ≤ (i 0).val ∧ (i 0).val < (i 0).val / 2000 * 2000 + 2000; omega
  | ⟨1, _⟩ =>
    show win2_4.index _ (1 : Fin 2) * 128 ≤ (i 1).val ∧ (i 1).val < win2_4.index _ (1 : Fin 2) * 128 + 128
    rw [e1]; omega

/-- The array region 2 leaves: the rectified affine image of every scaled row of its first operand. -/
theorem final (c : Dev nD) (r : Fin 50000) (q : Fin 128) :
    (dat2 (F := Ideal) V c).arrAt 4 cfg2.N (ix2 r q)
      = Cert.Layers.conv (V c main_v47) (V c main_v20) (V c main_arg5) (V c main_v22) r q :=
  congrFun ((dat2 (F := Ideal) V c).arrAt_eq_of_cover 4 (G (V c main_v47) (V c main_v20) (V c main_arg5) (V c main_v22))
    (fun t _ => flushed_eq V c t) cover) (ix2 r q)

end Cert.KernelIdeal.Region2

end
-- ==== Proof.Region3.lean ====
/-
  The projection stage, on the kernel side: the output array, entry by entry.

  The stage runs over 25 blocks of 2000 consecutive rows.  At block t it reads rows 2000·t … 2000·t + 1999 of a
  node-indexed array H (128 columns) and of the one-column array of node scales s, and the whole weight matrix W
  (128 × 40), multiplies the block of rows by W on the matrix unit from a zero accumulator, scales each row by its
  node's scale, and writes the same rows of its result: (Σₖ H[r, k] · W[k, q]) · s[r].  At the ideal values the changes
  of float format around the product are the identity.  Since row r of the result depends on row r of H and of s
  alone, what block t writes is block t of one function of the whole arrays, and the 25 blocks tile the 50000 rows
  (row r lies in block r / 2000); so the array ends holding that function at every entry.
-/
import proofs.«112558_j2800318677548_2_alg».proof.Proof.Gen.KernelIdeal.Frame
import proofs.«112558_j2800318677548_2_alg».proof.Proof.Spec
import proofs.«112558_j2800318677548_2_alg».proof.Proof.LibRowBlocks
import proofs.«112558_j2800318677548_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access, as a constant function. -/
theorem zero_offsets : (![0, 0] : Fin 2 → Nat) = fun _ => 0 := funext fun a => by fin_cases a <;> rfl

/-! ## The body at an index -/

/-- The body's matrix product has the plain dimension numbers: rows × contraction times contraction × columns. -/
theorem dims_plain : dot_S2000x128_S128x40_S2000x40_1_0_0_1_n_n = DotDims.plain 2000 128 40 := rfl

/-- The body's arithmetic on a block, entry by entry: the block's row p times the weight matrix, scaled by the
    row's scale.  The product is accumulated from zero, and every change of format is the identity on the
    extended reals. -/
theorem body_apply (x0 : Vec Ideal S2000x128 .bf16) (x1 : Vec Ideal S128x40 .f32) (x2 : Vec Ideal S2000x1 .f32)
    (p : Fin 2000) (q : Fin 40) :
    k3_pay1 x0 x1 x2 (ix2 p q) = Cert.Layers.projectScaled x0 x1 x2 p q := by
  unfold k3_pay1 Cert.Layers.projectScaled
  rw [truncf_apply, mulf_apply, shapeCast_self, shapeCast_self, Cert.Lib.Columns.broadcastTo_a1_ab_apply,
    dims_plain, Cert.Lib.PlainDot.matmul_plain_zero_apply]
  rfl

/-- What the body leaves in the output's buffer, entry by entry: it loads its three whole buffers and stores the
    whole result once. -/
theorem out_apply (x0 : Vec Ideal S2000x128 .bf16) (x1 : Vec Ideal S128x40 .f32) (x2 : Vec Ideal S2000x1 .f32)
    (p : Fin 2000) (q : Fin 40) :
    out3_3 x0 x1 x2 (ix2 p q) = Cert.Layers.projectScaled x0 x1 x2 p q := by
  unfold out3_3
  rw [View.canon_unit_zero zero_offsets]
  simp only [View.ld_unit_zero (S := S2000x128) zero_offsets, View.ld_unit_zero (S := S128x40) zero_offsets,
    View.ld_unit_zero (S := S2000x1) zero_offsets]
  exact body_apply x0 x1 x2 p q

/-- Blocks of rows give rows of the whole: if the blocks hold rows t·2000 … t·2000 + 1999 of the node-indexed arrays and
    the whole weight matrix, the body's result at a block index is the whole result at the array index of that row. -/
theorem out_of_rows (x0 : Vec Ideal S2000x128 .bf16) (x1 : Vec Ideal S128x40 .f32) (x2 : Vec Ideal S2000x1 .f32)
    (H : Cert.Layers.Mat 50000 128) (W : Cert.Layers.Mat 128 40) (so : Cert.Layers.Mat 50000 1) (tv : Nat)
    (h0 : ∀ (x : S2000x128.Idx) (k : S50000x128.Idx), (k 0).val = tv * 2000 + (x 0).val → (k 1).val = (x 1).val → x0 x = H k)
    (h1 : ∀ x : S128x40.Idx, x1 x = W x)
    (h2 : ∀ (x : S2000x1.Idx) (k : S50000x1.Idx), (k 0).val = tv * 2000 + (x 0).val → (k 1).val = (x 1).val → x2 x = so k)
    (j : S2000x40.Idx) (k : S50000x40.Idx)
    (hk0 : (k 0).val = tv * 2000 + (j 0).val) (hk1 : (k 1).val = (j 1).val) :
    out3_3 x0 x1 x2 j = Cert.Layers.projectScaled H W so (k 0) (k 1) := by
  obtain ⟨p, q, rfl⟩ : ∃ (p : Fin 2000) (q : Fin 40), j = ix2 p q := ⟨j 0, j 1, eq_ix2 j⟩
  obtain ⟨r, q', rfl⟩ : ∃ (r : Fin 50000) (q' : Fin 40), k = ix2 r q' := ⟨k 0, k 1, eq_ix2 k⟩
  obtain rfl : q' = q := Fin.ext hk1
  rw [out_apply]
  show Cert.Layers.projectScaled x0 x1 x2 p q' = Cert.Layers.projectScaled H W so r q'
  unfold Cert.Layers.projectScaled
  rw [h2 (ix2 p 0) (ix2 r 0) hk0 rfl]
  congr 1
  exact Finset.sum_congr rfl fun κ _ => by rw [h0 (ix2 p κ) (ix2 r κ) hk0 rfl, h1]

/-! ## The windows' blocks -/

/-- The index maps over the grid: the three node-indexed windows are at block (t, 0) at point t, the weight window at
    block (0, 0) throughout. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The first window's block at point t is rows t·2000 … of its array. -/
theorem block0_apply (c : Dev nD) (t : Fin cfg3.N) (x : S2000x128.Idx) (k : S50000x128.Idx)
    (hk0 : (k 0).val = t.val * 2000 + (x 0).val) (hk1 : (k 1).val = (x 1).val) :
    (iblk3 V c 0 t : Vec Ideal S2000x128 .bf16) x = (V c main_v48 : S50000x128.Idx → EReal) k := by
  obtain ⟨e0, e1, -⟩ := index_facts t
  unfold iblk3
  rw [View.read_apply]
  show V c main_v48 _ = V c main_v48 _
  congr 1
  funext a
  apply Fin.ext
  match a with
  | ⟨0, _⟩ => show win3_0.index t (0 : Fin 2) * 2000 + 1 * (x 0).val = (k 0).val; rw [e0, hk0]; omega
  | ⟨1, _⟩ => show win3_0.index t (1 : Fin 2) * 128 + 1 * (x 1).val = (k 1).val; rw [e1, hk1]; omega

/-- The weight window's block at every point is the whole weight matrix. -/
theorem block1_apply (c : Dev nD) (t : Fin cfg3.N) (x : S128x40.Idx) :
    (iblk3 V c 1 t : Vec Ideal S128x40 .f32) x = (V c main_arg7 : S128x40.Idx → EReal) x := by
  obtain ⟨-, -, e0, e1, -⟩ := index_facts t
  unfold iblk3
  rw [View.read_apply]
  show V c main_arg7 _ = V c main_arg7 _
  congr 1
  funext a
  apply Fin.ext
  match a with
  | ⟨0, _⟩ => show win3_1.index t (0 : Fin 2) * 128 + 1 * (x 0).val = (x 0).val; rw [e0]; omega
  | ⟨1, _⟩ => show win3_1.index t (1 : Fin 2) * 40 + 1 * (x 1).val = (x 1).val; rw [e1]; omega

/-- The scale window's block at point t is rows t·2000 … of the scale column. -/
theorem block2_apply (c : Dev nD) (t : Fin cfg3.N) (x : S2000x1.Idx) (k : S50000x1.Idx)
    (hk0 : (k 0).val = t.val * 2000 + (x 0).val) (hk1 : (k 1).val = (x 1).val) :
    (iblk3 V c 2 t : Vec Ideal S2000x1 .f32) x = (V c main_v13 : S50000x1.Idx → EReal) k := by
  obtain ⟨-, -, -, -, e0, e1, -⟩ := index_facts t
  unfold iblk3
  rw [View.read_apply]
  show V c main_v13 _ = V c main_v13 _
  congr 1
  funext a
  apply Fin.ext
  match a with
  | ⟨0, _⟩ => show win3_2.index t (0 : Fin 2) * 2000 + 1 * (x 0).val = (k 0).val; rw [e0, hk0]; omega
  | ⟨1, _⟩ => show win3_2.index t (1 : Fin 2) * 1 + 1 * (x 1).val = (k 1).val; rw [e1, hk1]; omega

/-! ## What a point writes back, and the whole array -/

/-- The array the region leaves: every row times the weight matrix, scaled by its node's scale. -/
abbrev whole (c : Dev nD) : S50000x40.Idx → EReal :=
  fun i => Cert.Layers.projectScaled (V c main_v48) (V c main_arg7) (V c main_v13) (i 0) (i 1)

/-- What point t writes back is block t of the whole result. -/
theorem flushed_eq (c : Dev nD) (t : Fin cfg3.N) :
    (dat3 (F := Ideal) V c).flushed 3 t = ((cfg3.win 3).blk t).view.read (Elt Ideal) (whole V c) := by
  show (cfg3.win 3).cut (grid3.coords t) ((dat3 V c).after 3 t) = _
  rw [after3_3]
  obtain ⟨-, -, -, -, -, -, e0, e1⟩ := index_facts t
  funext j
  show out3_3 (iblk3 V c 0 t) (iblk3 V c 1 t) (iblk3 V c 2 t) j = whole V c (((cfg3.win 3).blk t).view.emb j)
  refine out_of_rows _ _ _ _ _ _ t.val (block0_apply V c t) (block1_apply V c t) (block2_apply V c t) j _ ?_ ?_
  · show win3_3.index t (0 : Fin 2) * 2000 + 1 * (j 0).val = _; rw [e0]; omega
  · show win3_3.index t (1 : Fin 2) * 40 + 1 * (j 1).val = _; rw [e1]; omega

/-- An index of the array is in point t's block iff each coordinate is in the block's range on its axis. -/
theorem mem_block (t : Fin cfg3.N) (i : S50000x40.Idx) :
    i ∈ ((cfg3.win 3).blk t).view.set ↔ ∀ a : Fin 2, win3_3.index t a * S2000x40.size a ≤ (i a).val ∧ (i a).val < win3_3.index t a * S2000x40.size a + S2000x40.size a := by
  show i ∈ ((View.whole main_v49).slice (win3_3.rect t)).set ↔ _
  rw [View.set_slice_whole, Rect.mem_set_unit]
  exact Iff.rfl

/-- Every row r of the array is in the block of point r / 2000. -/
theorem cover (i : S50000x40.Idx) :
    ∃ t : Fin cfg3.N, (cfg3.win 3).flush t = true ∧ i ∈ ((cfg3.win 3).blk t).view.set := by
  have hi0 : (i 0).val < 50000 := (i 0).isLt
  have hi1 : (i 1).val < 40 := (i 1).isLt
  have hN : grid3.N = 25 := N_3
  have ht : (i 0).val / 2000 < grid3.N := by rw [hN]; omega
  obtain ⟨-, -, -, -, -, -, e0, e1⟩ := index_facts ⟨(i 0).val / 2000, ht⟩
  refine ⟨⟨(i 0).val / 2000, ht⟩, flush3_3 _, ?_⟩
  rw [mem_block]
  intro a
  match a with
  | ⟨0, _⟩ =>
    show win3_3.index ⟨(i 0).val / 2000, ht⟩ (0 : Fin 2) * 2000 ≤ (i 0).val ∧ (i 0).val < win3_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_3.index ⟨(i 0).val / 2000, ht⟩ (1 : Fin 2) * 40 ≤ (i 1).val ∧ (i 1).val < win3_3.index ⟨(i 0).val / 2000, ht⟩ (1 : Fin 2) * 40 + 40
    rw [e1]; omega

/-- The array after the run, entry by entry: row r times the weight matrix, scaled by its node's scale. -/
theorem final (c : Dev nD) (r : Fin 50000) (q : Fin 40) :
    (dat3 (F := Ideal) V c).arrAt 3 cfg3.N (ix2 r q)
      = Cert.Layers.projectScaled (V c main_v48) (V c main_arg7) (V c main_v13) r q :=
  congrFun ((dat3 (F := Ideal) V c).arrAt_eq_of_cover 3 (whole V c) (fun t _ => flushed_eq V c t) cover) (ix2 r q)

end Cert.KernelIdeal.Region3

end
-- ==== Proof.Region4.lean ====
/-
  The last dense stage, on the kernel side: the output array, entry by entry.

  The stage runs over 25 blocks of 2000 consecutive rows.  At block t it reads rows 2000·t … 2000·t + 1999 of a
  node-indexed array A (40 columns) and of the one-column array of node scales s, and the whole bias row b, and
  writes the same rows of its result: A[r, q] · s[r] + b[q].  Since row r of the result depends on row r of A and of
  s alone, what block t writes is block t of one function of the whole arrays, and the 25 blocks tile the 50000
  rows (row r lies in block r / 2000); so the array ends holding that function at every entry.
-/
import proofs.«112558_j2800318677548_2_alg».proof.Proof.Gen.KernelIdeal.Frame
import proofs.«112558_j2800318677548_2_alg».proof.Proof.Spec
import proofs.«112558_j2800318677548_2_alg».proof.Proof.LibRowBlocks
import proofs.«112558_j2800318677548_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access, as a constant function. -/
theorem zero_offsets : (![0, 0] : Fin 2 → Nat) = fun _ => 0 := funext fun a => by fin_cases a <;> rfl

/-! ## The body at an index -/

/-- The body's arithmetic on a block, entry by entry: the block's row p scaled by the row's scale, plus the bias. -/
theorem body_apply (x0 : Vec Ideal S2000x40 .f32) (x1 : Vec Ideal S2000x1 .f32) (x2 : Vec Ideal S1x40 .f32)
    (p : Fin 2000) (q : Fin 40) :
    k4_pay1 x0 x1 x2 (ix2 p q) = Cert.Layers.scaledBias x0 x1 x2 p q := by
  unfold k4_pay1 Cert.Layers.scaledBias
  rw [addf_apply, mulf_apply, shapeCast_self, shapeCast_self, shapeCast_self,
    Cert.Lib.Columns.broadcastTo_a1_ab_apply, broadcastTo_1b_ab_apply]

/-- What the body leaves in the output's buffer, entry by entry: it loads its three whole buffers and stores the
    whole result once. -/
theorem out_apply (x0 : Vec Ideal S2000x40 .f32) (x1 : Vec Ideal S2000x1 .f32) (x2 : Vec Ideal S1x40 .f32)
    (p : Fin 2000) (q : Fin 40) :
    out4_3 x0 x1 x2 (ix2 p q) = Cert.Layers.scaledBias x0 x1 x2 p q := by
  unfold out4_3
  rw [View.canon_unit_zero zero_offsets]
  simp only [View.ld_unit_zero (S := S2000x40) zero_offsets, View.ld_unit_zero (S := S2000x1) zero_offsets,
    View.ld_unit_zero (S := S1x40) zero_offsets]
  exact body_apply x0 x1 x2 p q

/-- Blocks of rows give rows of the whole: if the blocks hold rows t·2000 … t·2000 + 1999 of the node-indexed arrays and
    the whole bias row, the body's result at a block index is the whole result at the array index of that row. -/
theorem out_of_rows (x0 : Vec Ideal S2000x40 .f32) (x1 : Vec Ideal S2000x1 .f32) (x2 : Vec Ideal S1x40 .f32)
    (A : Cert.Layers.Mat 50000 40) (si : Cert.Layers.Mat 50000 1) (b : Cert.Layers.Mat 1 40) (tv : Nat)
    (h0 : ∀ (x : S2000x40.Idx) (k : S50000x40.Idx), (k 0).val = tv * 2000 + (x 0).val → (k 1).val = (x 1).val → x0 x = A k)
    (h1 : ∀ (x : S2000x1.Idx) (k : S50000x1.Idx), (k 0).val = tv * 2000 + (x 0).val → (k 1).val = (x 1).val → x1 x = si k)
    (h2 : ∀ x : S1x40.Idx, x2 x = b x)
    (j : S2000x40.Idx) (k : S50000x40.Idx)
    (hk0 : (k 0).val = tv * 2000 + (j 0).val) (hk1 : (k 1).val = (j 1).val) :
    out4_3 x0 x1 x2 j = Cert.Layers.scaledBias A si b (k 0) (k 1) := by
  obtain ⟨p, q, rfl⟩ : ∃ (p : Fin 2000) (q : Fin 40), j = ix2 p q := ⟨j 0, j 1, eq_ix2 j⟩
  obtain ⟨r, q', rfl⟩ : ∃ (r : Fin 50000) (q' : Fin 40), k = ix2 r q' := ⟨k 0, k 1, eq_ix2 k⟩
  obtain rfl : q' = q := Fin.ext hk1
  rw [out_apply]
  show x0 (ix2 p q') * x1 (ix2 p 0) + x2 (ix2 0 q') = A (ix2 r q') * si (ix2 r 0) + b (ix2 0 q')
  rw [h0 (ix2 p q') (ix2 r q') hk0 rfl, h1 (ix2 p 0) (ix2 r 0) hk0 rfl, h2]

/-! ## The windows' blocks -/

/-- The index maps over the grid: the three node-indexed windows are at block (t, 0) at point t, the bias window at
    block (0, 0) throughout. -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The first window's block at point t is rows t·2000 … of its array. -/
theorem block0_apply (c : Dev nD) (t : Fin cfg4.N) (x : S2000x40.Idx) (k : S50000x40.Idx)
    (hk0 : (k 0).val = t.val * 2000 + (x 0).val) (hk1 : (k 1).val = (x 1).val) :
    (iblk4 V c 0 t : Vec Ideal S2000x40 .f32) x = (V c main_v60 : S50000x40.Idx → EReal) k := by
  obtain ⟨e0, e1, -⟩ := index_facts t
  unfold iblk4
  rw [View.read_apply]
  show V c main_v60 _ = V c main_v60 _
  congr 1
  funext a
  apply Fin.ext
  match a with
  | ⟨0, _⟩ => show win4_0.index t (0 : Fin 2) * 2000 + 1 * (x 0).val = (k 0).val; rw [e0, hk0]; omega
  | ⟨1, _⟩ => show win4_0.index t (1 : Fin 2) * 40 + 1 * (x 1).val = (k 1).val; rw [e1, hk1]; omega

/-- The scale window's block at point t is rows t·2000 … of the scale column. -/
theorem block1_apply (c : Dev nD) (t : Fin cfg4.N) (x : S2000x1.Idx) (k : S50000x1.Idx)
    (hk0 : (k 0).val = t.val * 2000 + (x 0).val) (hk1 : (k 1).val = (x 1).val) :
    (iblk4 V c 1 t : Vec Ideal S2000x1 .f32) x = (V c main_v20 : S50000x1.Idx → EReal) k := by
  obtain ⟨-, -, e0, e1, -⟩ := index_facts t
  unfold iblk4
  rw [View.read_apply]
  show V c main_v20 _ = V c main_v20 _
  congr 1
  funext a
  apply Fin.ext
  match a with
  | ⟨0, _⟩ => show win4_1.index t (0 : Fin 2) * 2000 + 1 * (x 0).val = (k 0).val; rw [e0, hk0]; omega
  | ⟨1, _⟩ => show win4_1.index t (1 : Fin 2) * 1 + 1 * (x 1).val = (k 1).val; rw [e1, hk1]; omega

/-- The bias window's block at every point is the whole bias row. -/
theorem block2_apply (c : Dev nD) (t : Fin cfg4.N) (x : S1x40.Idx) :
    (iblk4 V c 2 t : Vec Ideal S1x40 .f32) x = (V c main_v23 : S1x40.Idx → EReal) x := by
  obtain ⟨-, -, -, -, e0, e1, -⟩ := index_facts t
  unfold iblk4
  rw [View.read_apply]
  show V c main_v23 _ = V c main_v23 _
  congr 1
  funext a
  apply Fin.ext
  match a with
  | ⟨0, _⟩ => show win4_2.index t (0 : Fin 2) * 1 + 1 * (x 0).val = (x 0).val; rw [e0]; omega
  | ⟨1, _⟩ => show win4_2.index t (1 : Fin 2) * 40 + 1 * (x 1).val = (x 1).val; rw [e1]; omega

/-! ## What a point writes back, and the whole array -/

/-- The array the region leaves: every row scaled by its node's scale, plus the bias. -/
abbrev whole (c : Dev nD) : S50000x40.Idx → EReal :=
  fun i => Cert.Layers.scaledBias (V c main_v60) (V c main_v20) (V c main_v23) (i 0) (i 1)

/-- What point t writes back is block t of the whole result. -/
theorem flushed_eq (c : Dev nD) (t : Fin cfg4.N) :
    (dat4 (F := Ideal) V c).flushed 3 t = ((cfg4.win 3).blk t).view.read (Elt Ideal) (whole V c) := by
  show (cfg4.win 3).cut (grid4.coords t) ((dat4 V c).after 3 t) = _
  rw [after4_3]
  obtain ⟨-, -, -, -, -, -, e0, e1⟩ := index_facts t
  funext j
  show out4_3 (iblk4 V c 0 t) (iblk4 V c 1 t) (iblk4 V c 2 t) j = whole V c (((cfg4.win 3).blk t).view.emb j)
  refine out_of_rows _ _ _ _ _ _ t.val (block0_apply V c t) (block1_apply V c t) (block2_apply V c t) j _ ?_ ?_
  · show win4_3.index t (0 : Fin 2) * 2000 + 1 * (j 0).val = _; rw [e0]; omega
  · show win4_3.index t (1 : Fin 2) * 40 + 1 * (j 1).val = _; rw [e1]; omega

/-- An index of the array is in point t's block iff each coordinate is in the block's range on its axis. -/
theorem mem_block (t : Fin cfg4.N) (i : S50000x40.Idx) :
    i ∈ ((cfg4.win 3).blk t).view.set ↔ ∀ a : Fin 2, win4_3.index t a * S2000x40.size a ≤ (i a).val ∧ (i a).val < win4_3.index t a * S2000x40.size a + S2000x40.size a := by
  show i ∈ ((View.whole main_v61).slice (win4_3.rect t)).set ↔ _
  rw [View.set_slice_whole, Rect.mem_set_unit]
  exact Iff.rfl

/-- Every row r of the array is in the block of point r / 2000. -/
theorem cover (i : S50000x40.Idx) :
    ∃ t : Fin cfg4.N, (cfg4.win 3).flush t = true ∧ i ∈ ((cfg4.win 3).blk t).view.set := by
  have hi0 : (i 0).val < 50000 := (i 0).isLt
  have hi1 : (i 1).val < 40 := (i 1).isLt
  have hN : grid4.N = 25 := N_4
  have ht : (i 0).val / 2000 < grid4.N := by rw [hN]; omega
  obtain ⟨-, -, -, -, -, -, e0, e1⟩ := index_facts ⟨(i 0).val / 2000, ht⟩
  refine ⟨⟨(i 0).val / 2000, ht⟩, flush4_3 _, ?_⟩
  rw [mem_block]
  intro a
  match a with
  | ⟨0, _⟩ =>
    show win4_3.index ⟨(i 0).val / 2000, ht⟩ (0 : Fin 2) * 2000 ≤ (i 0).val ∧ (i 0).val < win4_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_3.index ⟨(i 0).val / 2000, ht⟩ (1 : Fin 2) * 40 ≤ (i 1).val ∧ (i 1).val < win4_3.index ⟨(i 0).val / 2000, ht⟩ (1 : Fin 2) * 40 + 40
    rw [e1]; omega

/-- The array after the run, entry by entry: row r scaled by its node's scale, plus the bias. -/
theorem final (c : Dev nD) (r : Fin 50000) (q : Fin 40) :
    (dat4 (F := Ideal) V c).arrAt 3 cfg4.N (ix2 r q)
      = Cert.Layers.scaledBias (V c main_v60) (V c main_v20) (V c main_v23) r q :=
  congrFun ((dat4 (F := Ideal) V c).arrAt_eq_of_cover 3 (whole V c) (fun t _ => flushed_eq V c t) cover) (ix2 r q)

end Cert.KernelIdeal.Region4

end
-- ==== Proof.Chain.lean ====
/-
  The idealized kernel's result is the reference's value.

  Boundary by boundary through @main: the first region scales the feature rows; a stretch of host operations gathers
  the scaled rows along the edges and adds them up by destination node; the second region turns each aggregated row
  into the next layer's scaled features; and so on through three layers.  At every boundary the buffer the next
  segment reads holds exactly the value the reference computes at the corresponding operation — a region's output by
  the entry-by-entry form of its block computation, a host stretch's by the very same host operations applied to equal
  operands — and the scales and bias rows computed before the first region are left alone by everything after it.
-/
import proofs.«112558_j2800318677548_2_alg».proof.Proof.Gen.KernelIdeal.Frame
import proofs.«112558_j2800318677548_2_alg».proof.Proof.RefRead
import proofs.«112558_j2800318677548_2_alg».proof.Proof.Spec
import proofs.«112558_j2800318677548_2_alg».proof.Proof.Kept
import proofs.«112558_j2800318677548_2_alg».proof.Proof.EntryScales
import proofs.«112558_j2800318677548_2_alg».proof.Proof.EntryArgs
import proofs.«112558_j2800318677548_2_alg».proof.Proof.Stretches
import proofs.«112558_j2800318677548_2_alg».proof.Proof.RefStages
import proofs.«112558_j2800318677548_2_alg».proof.Proof.Region0
import proofs.«112558_j2800318677548_2_alg».proof.Proof.Region1
import proofs.«112558_j2800318677548_2_alg».proof.Proof.Region2
import proofs.«112558_j2800318677548_2_alg».proof.Proof.Region3
import proofs.«112558_j2800318677548_2_alg».proof.Proof.Region4
import Idealize.ShloMosaic.Lib.ValueIdx

set_option maxRecDepth 16384

noncomputable section

namespace Cert.KernelIdeal.Chain

open Cert.KernelIdeal Cert.KernelIdeal.Gen Idealize.ShloMosaic Idealize.ShloMosaic.TcCoe Idealize.ShloMosaic.ValueIdx Idealize.SL.Sem
open Cert.ReferenceIdeal.ReadP Cert.ReferenceIdeal.Stages Cert.KernelIdeal.Kept Cert.KernelIdeal.Entry Cert.KernelIdeal.EntryArgs Cert.KernelIdeal.Stretches

variable (m : (ℓ : Loc nD τ sig) → Buf (Elt Ideal) ℓ) (ρ : Dev nD → PrngReg) (c : Dev nD)

/-- The argument arrays as launched. -/
abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A6 := m ((c.tc : Thread nD τ).loc main_arg6)
abbrev A7 := m ((c.tc : Thread nD τ).loc main_arg7)
abbrev A8 := m ((c.tc : Thread nD τ).loc main_arg8)

/-! ## The index arrays and the scales at every later boundary -/

theorem src6 : W6 m ρ c (Proc.devRef .tc main_arg1) = (A1 m c) := (W6_of m ρ c main_arg1 (by decide)).trans (W5_arg1 m ρ c)
theorem dst6 : W6 m ρ c (Proc.devRef .tc main_arg2) = (A2 m c) := (W6_of m ρ c main_arg2 (by decide)).trans (W5_arg2 m ρ c)
theorem src8 : W8 m ρ c (Proc.devRef .tc main_arg1) = (A1 m c) :=
  (W8_eq5 m ρ c main_arg1 (by decide) (by decide) (by decide)).trans (W5_arg1 m ρ c)
theorem dst8 : W8 m ρ c (Proc.devRef .tc main_arg2) = (A2 m c) :=
  (W8_eq5 m ρ c main_arg2 (by decide) (by decide) (by decide)).trans (W5_arg2 m ρ c)
theorem src11 : W11 m ρ c (Proc.devRef .tc main_arg1) = (A1 m c) :=
  (W11_eq5 m ρ c main_arg1 (by decide) (by decide) (by decide) (by decide) (by decide) (by decide)).trans (W5_arg1 m ρ c)
theorem dst11 : W11 m ρ c (Proc.devRef .tc main_arg2) = (A2 m c) :=
  (W11_eq5 m ρ c main_arg2 (by decide) (by decide) (by decide) (by decide) (by decide) (by decide)).trans (W5_arg2 m ρ c)

/-! ## Region 0 -/

/-- After region 0 its output holds the reference's scaled features. -/
theorem out0 : W6 m ρ c (Proc.devRef .tc main_v24) = val_main_v21 (F := Ideal) (A0 m c) (A1 m c) := by
  refine (W6_arr m ρ c 2).trans ?_
  funext i
  obtain ⟨r, q, rfl⟩ : ∃ (r : Fin 50000) (q : Fin 128), i = ix2 r q := ⟨i 0, i 1, eq_ix2 i⟩
  refine (Cert.KernelIdeal.Region0.final (V5 m ρ) c r q).trans ?_
  rw [stage0 (A0 m c) (A1 m c) r q]
  show Cert.Layers.scaled (W5 m ρ c (Proc.devRef .tc main_arg0)) (W5 m ρ c (Proc.devRef .tc main_v13)) r q = _
  rw [W5_arg0 m ρ c, W5_v13 m ρ c]

/-- The first aggregation. -/
theorem agg1 : W7 m ρ c (Proc.devRef .tc main_v35) = val_main_v31 (F := Ideal) (A0 m c) (A1 m c) (A2 m c) :=
  stretch1 (W6 m ρ c) (A0 m c) (A1 m c) (A2 m c) (out0 m ρ c) (src6 m ρ c) (dst6 m ρ c)

/-! ## Region 1 -/

theorem out1 : W8 m ρ c (Proc.devRef .tc main_v36) = val_main_v42 (F := Ideal) (A0 m c) (A1 m c) (A2 m c) (A3 m c) (A4 m c) := by
  refine (W8_arr m ρ c 5).trans ?_
  funext i
  obtain ⟨r, q, rfl⟩ : ∃ (r : Fin 50000) (q : Fin 128), i = ix2 r q := ⟨i 0, i 1, eq_ix2 i⟩
  refine (Cert.KernelIdeal.Region1.final (V7 m ρ) c r q).trans ?_
  rw [stage1 (A0 m c) (A1 m c) (A2 m c) (A3 m c) (A4 m c) r q, col_v40 (A1 m c)]
  show Cert.Layers.convScaled (W7 m ρ c (Proc.devRef .tc main_v35)) (W7 m ρ c (Proc.devRef .tc main_v20))
      (W7 m ρ c (Proc.devRef .tc main_arg3)) (W7 m ρ c (Proc.devRef .tc main_v21)) (W7 m ρ c (Proc.devRef .tc main_v13)) r q = _
  rw [agg1 m ρ c, W7_eq5 m ρ c main_v20 (by decide) (by decide), W5_v20 m ρ c,
    W7_eq5 m ρ c main_arg3 (by decide) (by decide), W5_arg3 m ρ c,
    W7_eq5 m ρ c main_v21 (by decide) (by decide), W5_v21 m ρ c,
    W7_eq5 m ρ c main_v13 (by decide) (by decide), W5_v13 m ρ c]

/-- The second aggregation. -/
theorem agg2 : W9 m ρ c (Proc.devRef .tc main_v47) = val_main_v52 (F := Ideal) (A0 m c) (A1 m c) (A2 m c) (A3 m c) (A4 m c) :=
  stretch2 (W8 m ρ c) (A0 m c) (A1 m c) (A2 m c) (A3 m c) (A4 m c) (out1 m ρ c) (src8 m ρ c) (dst8 m ρ c)

/-! ## Regions 2 and 3 -/

theorem out2 : W10 m ρ c (Proc.devRef .tc main_v48) = val_main_v60 (F := Ideal) (A0 m c) (A1 m c) (A2 m c) (A3 m c) (A4 m c) (A5 m c) (A6 m c) := by
  refine (W10_arr m ρ c 4).trans ?_
  funext i
  obtain ⟨r, q, rfl⟩ : ∃ (r : Fin 50000) (q : Fin 128), i = ix2 r q := ⟨i 0, i 1, eq_ix2 i⟩
  refine (Cert.KernelIdeal.Region2.final (V9 m ρ) c r q).trans ?_
  rw [stage2 (A0 m c) (A1 m c) (A2 m c) (A3 m c) (A4 m c) (A5 m c) (A6 m c) r q, col_v53 (A2 m c)]
  show Cert.Layers.conv (W9 m ρ c (Proc.devRef .tc main_v47)) (W9 m ρ c (Proc.devRef .tc main_v20))
      (W9 m ρ c (Proc.devRef .tc main_arg5)) (W9 m ρ c (Proc.devRef .tc main_v22)) r q = _
  rw [agg2 m ρ c, W9_eq5 m ρ c main_v20 (by decide) (by decide) (by decide) (by decide), W5_v20 m ρ c,
    W9_eq5 m ρ c main_arg5 (by decide) (by decide) (by decide) (by decide), W5_arg5 m ρ c,
    W9_eq5 m ρ c main_v22 (by decide) (by decide) (by decide) (by decide), W5_v22 m ρ c]

theorem out3 : W11 m ρ c (Proc.devRef .tc main_v49) = val_main_v64 (F := Ideal) (A0 m c) (A1 m c) (A2 m c) (A3 m c) (A4 m c) (A5 m c) (A6 m c) (A7 m c) := by
  refine (W11_arr m ρ c 3).trans ?_
  funext i
  obtain ⟨r, q, rfl⟩ : ∃ (r : Fin 50000) (q : Fin 40), i = ix2 r q := ⟨i 0, i 1, eq_ix2 i⟩
  refine (Cert.KernelIdeal.Region3.final (V10 m ρ) c r q).trans ?_
  rw [stage3 (A0 m c) (A1 m c) (A2 m c) (A3 m c) (A4 m c) (A5 m c) (A6 m c) (A7 m c) r q, col_v62 (A1 m c)]
  show Cert.Layers.projectScaled (W10 m ρ c (Proc.devRef .tc main_v48)) (W10 m ρ c (Proc.devRef .tc main_arg7))
      (W10 m ρ c (Proc.devRef .tc main_v13)) r q = _
  rw [out2 m ρ c, W10_eq5 m ρ c main_arg7 (by decide) (by decide) (by decide) (by decide) (by decide), W5_arg7 m ρ c,
    W10_eq5 m ρ c main_v13 (by decide) (by decide) (by decide) (by decide) (by decide), W5_v13 m ρ c]

/-- The third aggregation. -/
theorem agg3 : W12 m ρ c (Proc.devRef .tc main_v60) = val_main_v74 (F := Ideal) (A0 m c) (A1 m c) (A2 m c) (A3 m c) (A4 m c) (A5 m c) (A6 m c) (A7 m c) :=
  stretch4 (W11 m ρ c) (A0 m c) (A1 m c) (A2 m c) (A3 m c) (A4 m c) (A5 m c) (A6 m c) (A7 m c) (out3 m ρ c) (src11 m ρ c) (dst11 m ρ c)

/-! ## Region 4: the result -/

/-- At the end of @main the result array holds the reference's value of the same arguments. -/
theorem result : W13 m ρ c (Proc.devRef .tc main_v61) = val_main_v80 (F := Ideal) (A0 m c) (A1 m c) (A2 m c) (A3 m c) (A4 m c) (A5 m c) (A6 m c) (A7 m c) (A8 m c) := by
  refine (W13_arr m ρ c 3).trans ?_
  funext i
  obtain ⟨r, q, rfl⟩ : ∃ (r : Fin 50000) (q : Fin 40), i = ix2 r q := ⟨i 0, i 1, eq_ix2 i⟩
  refine (Cert.KernelIdeal.Region4.final (V12 m ρ) c r q).trans ?_
  rw [stage4 (A0 m c) (A1 m c) (A2 m c) (A3 m c) (A4 m c) (A5 m c) (A6 m c) (A7 m c) (A8 m c) r q, col_v75 (A2 m c)]
  show Cert.Layers.scaledBias (W12 m ρ c (Proc.devRef .tc main_v60)) (W12 m ρ c (Proc.devRef .tc main_v20))
      (W12 m ρ c (Proc.devRef .tc main_v23)) r q = _
  rw [agg3 m ρ c,
    W12_eq5 m ρ c main_v20 (by decide) (by decide) (by decide) (by decide) (by decide) (by decide) (by decide), W5_v20 m ρ c,
    W12_eq5 m ρ c main_v23 (by decide) (by decide) (by decide) (by decide) (by decide) (by decide) (by decide), W5_v23 m ρ c]

end Cert.KernelIdeal.Chain

end
-- ==== Proof.lean ====
/-
  A three-layer graph convolution: the tiled kernel against the plain reference, over the extended reals.

  Both programs compute the node scales 1/√(out-degree) and 1/√(in-degree) (0 for an isolated node) with the same
  host operations, and then three layers of the same shape: scale each node's row by its out-degree scale, gather the
  rows along the edges, add them up by destination node, scale by the in-degree scale, and apply the layer's dense map.
  The kernel performs the dense, node-indexed stages in five tiled regions of 25 blocks of 2000 rows — and stores the
  gathered arrays in a narrower float format, which changes nothing on extended reals —; the reference performs them
  as whole-array host operations.  Row r of every dense stage depends only on row r of its node-indexed operands, so
  the tiling is invisible entry by entry, and a matrix product on the matrix unit into a zero accumulator is the
  host's product: both are the plain sum over the contracted axis.  The gathers and scatter-adds between the stages
  are the same host operations on both sides, applied to operands already shown equal.  No law of arithmetic beyond
  that is used, and the precondition (finite inputs) is not needed.

  The three frames: the two kernel programs' by the generated frame proofs; the reference's from its run.  The
  idealization rewrote nothing, so its conjunct is trivial.  The algebraic conjunct pairs the kernel's run, read at its
  last boundary (KernelRun, Chain), with the reference's run (RefRun) read one operation at a time (RefRead, RefStages).
-/
import proofs.«112558_j2800318677548_2_alg».proof.Defs
import proofs.«112558_j2800318677548_2_alg».proof.Proof.Gen.Kernel
import proofs.«112558_j2800318677548_2_alg».proof.Proof.Gen.Kernel.Skeleton
import proofs.«112558_j2800318677548_2_alg».proof.Proof.Gen.Kernel.Launch
import proofs.«112558_j2800318677548_2_alg».proof.Proof.Gen.Kernel.Points
import proofs.«112558_j2800318677548_2_alg».proof.Proof.Gen.Kernel.Frame
import proofs.«112558_j2800318677548_2_alg».proof.Proof.Gen.KernelIdeal
import proofs.«112558_j2800318677548_2_alg».proof.Proof.Gen.KernelIdeal.Skeleton
import proofs.«112558_j2800318677548_2_alg».proof.Proof.Gen.KernelIdeal.Launch
import proofs.«112558_j2800318677548_2_alg».proof.Proof.Gen.KernelIdeal.Points
import proofs.«112558_j2800318677548_2_alg».proof.Proof.Gen.KernelIdeal.Frame
import proofs.«112558_j2800318677548_2_alg».proof.Proof.Gen.ReferenceIdeal
import proofs.«112558_j2800318677548_2_alg».proof.Proof.Gen.Pre_finite_inputs
import proofs.«112558_j2800318677548_2_alg».proof.Proof.RefRead
import proofs.«112558_j2800318677548_2_alg».proof.Proof.KernelRun
import proofs.«112558_j2800318677548_2_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result array at the reference's value of the (agreeing) arguments. -/
theorem algebraic : Cert.algebraic_KernelIdeal_ReferenceIdeal := by
  intro m ρ m' ρ' _ hagree
  refine ⟨fun c => Cert.ReferenceIdeal.ReadP.val_main_v80 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.RunAll.run (F := Ideal) m ρ)
    exact ⟨(h c _ (Cert.KernelIdeal.Gen.mem_uc Cert.KernelIdeal.main_v61 (by decide))).trans (Cert.KernelIdeal.Chain.result m ρ c),
      (h c _ (Cert.KernelIdeal.Gen.mem_uc Cert.KernelIdeal.main_arg0 (by decide))).trans (Cert.KernelIdeal.Gen.W13_main_arg0 m ρ c),
      (h c _ (Cert.KernelIdeal.Gen.mem_uc Cert.KernelIdeal.main_arg1 (by decide))).trans (Cert.KernelIdeal.Gen.W13_main_arg1 m ρ c),
      (h c _ (Cert.KernelIdeal.Gen.mem_uc Cert.KernelIdeal.main_arg2 (by decide))).trans (Cert.KernelIdeal.Gen.W13_main_arg2 m ρ c),
      (h c _ (Cert.KernelIdeal.Gen.mem_uc Cert.KernelIdeal.main_arg3 (by decide))).trans (Cert.KernelIdeal.Gen.W13_main_arg3 m ρ c),
      (h c _ (Cert.KernelIdeal.Gen.mem_uc Cert.KernelIdeal.main_arg4 (by decide))).trans (Cert.KernelIdeal.Gen.W13_main_arg4 m ρ c),
      (h c _ (Cert.KernelIdeal.Gen.mem_uc Cert.KernelIdeal.main_arg5 (by decide))).trans (Cert.KernelIdeal.Gen.W13_main_arg5 m ρ c),
      (h c _ (Cert.KernelIdeal.Gen.mem_uc Cert.KernelIdeal.main_arg6 (by decide))).trans (Cert.KernelIdeal.Gen.W13_main_arg6 m ρ c),
      (h c _ (Cert.KernelIdeal.Gen.mem_uc Cert.KernelIdeal.main_arg7 (by decide))).trans (Cert.KernelIdeal.Gen.W13_main_arg7 m ρ c),
      (h c _ (Cert.KernelIdeal.Gen.mem_uc Cert.KernelIdeal.main_arg8 (by decide))).trans (Cert.KernelIdeal.Gen.W13_main_arg8 m ρ c)⟩
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v80_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
